-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v83)) (v1 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S1x128 .f32) (main_arg15 : FVec F S1 .f32) (main_arg16 : FVec F S1x128 .f32) (main_arg17 : FVec F S1 .f32) (main_v63 : IVec S_ 1) (main_v67 : IVec S_ 1) : IVec S_ 1 :=
  let main_v68 : IVec S_ 1 := andi main_v63 main_v67
  let main_v69 : FVec F S1x128 .f32 := Host.absf main_arg14
  let main_cst_26 : FVec F S_ .f32 := constant S_ .f32 0x7F800000#32
  let main_v70 : FVec F S1x128 .f32 := broadcastInDim S1x128 ![] bcast_S_S1x128 main_cst_26
  let main_v71 : IVec S1x128 1 := cmpf .olt main_v69 main_v70
  let main_c_27 : IVec S_ 1 := constantI S_ 1 1#1
  let main_v72 : IVec S_ 1 := (fun x v => Host.reduce IntOp.andi x v reducesTo_S1x128_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S1x128 .f32 := Host.absf main_arg16
  let main_cst_30 : FVec F S_ .f32 := constant S_ .f32 0x7F800000#32
  let main_v80 : FVec F S1x128 .f32 := broadcastInDim S1x128 ![] bcast_S_S1x128 main_cst_30
  let main_v81 : IVec S1x128 1 := cmpf .olt main_v79 main_v80
  let main_c_31 : IVec S_ 1 := constantI S_ 1 1#1
  let main_v82 : IVec S_ 1 := (fun x v => Host.reduce IntOp.andi x v reducesTo_S1x128_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1 .f32) (main_arg12 : FVec F S1x128 .f32) (main_arg13 : FVec F S1 .f32) (main_arg14 : FVec F S1x128 .f32) (main_arg15 : FVec F S1 .f32) (main_arg16 : FVec F S1x128 .f32) (main_arg17 : FVec F S1 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S1x128 .f32 := Host.absf main_arg12
  let main_cst_22 : FVec F S_ .f32 := constant S_ .f32 0x7F800000#32
  let main_v60 : FVec F S1x128 .f32 := broadcastInDim S1x128 ![] bcast_S_S1x128 main_cst_22
  let main_v61 : IVec S1x128 1 := cmpf .olt main_v59 main_v60
  let main_c_23 : IVec S_ 1 := constantI S_ 1 1#1
  let main_v62 : IVec S_ 1 := (fun x v => Host.reduce IntOp.andi x v reducesTo_S1x128_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg14 main_arg15 main_arg16 main_arg17 main_v63 main_v67

def fn_part2 {F : FTy → Type} [FloatOps F] (main_arg7 : FVec F S128 .f32) (main_arg8 : FVec F S128x128 .f32) (main_arg9 : FVec F S128 .f32) (main_arg10 : FVec F S1x128 .f32) (main_arg11 : FVec F S1 .f32) (main_arg12 : FVec F S1x128 .f32) (main_arg13 : FVec F S1 .f32) (main_arg14 : FVec F S1x128 .f32) (main_arg15 : FVec F S1 .f32) (main_arg16 : FVec F S1x128 .f32) (main_arg17 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1x128 .f32 := Host.absf main_arg10
  let main_cst_18 : FVec F S_ .f32 := constant S_ .f32 0x7F800000#32
  let main_v50 : FVec F S1x128 .f32 := broadcastInDim S1x128 ![] bcast_S_S1x128 main_cst_18
  fn_part3 (F := F) main_arg11 main_arg12 main_arg13 main_arg14 main_arg15 main_arg16 main_arg17 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S1x128 .f32) (main_arg11 : FVec F S1 .f32) (main_arg12 : FVec F S1x128 .f32) (main_arg13 : FVec F S1 .f32) (main_arg14 : FVec F S1x128 .f32) (main_arg15 : FVec F S1 .f32) (main_arg16 : FVec F S1x128 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S100000x128 .f32) (main_arg1 : FVec F S100000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S1x128 .f32) (main_arg11 : FVec F S1 .f32) (main_arg12 : FVec F S1x128 .f32) (main_arg13 : FVec F S1 .f32) (main_arg14 : FVec F S1x128 .f32) (main_arg15 : FVec F S1 .f32) (main_arg16 : FVec F S1x128 .f32) (main_arg17 : FVec F S1 .f32) (main_arg18 : IVec S500000 32) (main_arg19 : IVec S500000 32) (main_arg20 : IVec S500000 32) (main_arg21 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000x1 : Shape := ⟨2, ![100000, 1]⟩
abbrev S5000x128 : Shape := ⟨2, ![5000, 128]⟩
abbrev S1x1 : Shape := ⟨2, ![1, 1]⟩
abbrev S5000x1 : Shape := ⟨2, ![5000, 1]⟩
abbrev S128x1 : Shape := ⟨2, ![128, 1]⟩

abbrev nBuf : Space → Nat
  | .hbm => 130
  | .vmem => 40
  | .smem => 0
  | _ => 0

abbrev hbmTy0_0 (i : Nat) : BufTy := match i % 128 with
  | 0 => ⟨S100000x128, .f32⟩
  | 1 => ⟨S100000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1x128, .f32⟩
  | 11 => ⟨S1, .f32⟩
  | 12 => ⟨S1x128, .f32⟩
  | 13 => ⟨S1, .f32⟩
  | 14 => ⟨S1x128, .f32⟩
  | 15 => ⟨S1, .f32⟩
  | 16 => ⟨S1x128, .f32⟩
  | 17 => ⟨S1, .f32⟩
  | 18 => ⟨S500000, .i32⟩
  | 19 => ⟨S500000, .i32⟩
  | 20 => ⟨S500000, .i32⟩
  | 21 => ⟨S500000, .i32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x128, .f32⟩
  | 31 => ⟨S_, .f32⟩
  | 32 => ⟨S100000x128, .f32⟩
  | 33 => ⟨S500000x1, .i32⟩
  | 34 => ⟨S100000x128, .f32⟩
  | 35 => ⟨S_, .f32⟩
  | 36 => ⟨S500000x1, .f32⟩
  | 37 => ⟨S_, .f32⟩
  | 38 => ⟨S100000x1, .f32⟩
  | 39 => ⟨S500000x1, .i32⟩
  | 40 => ⟨S100000x1, .f32⟩
  | 41 => ⟨S_, .f32⟩
  | 42 => ⟨S100000x1, .f32⟩
  | 43 => ⟨S100000x1, .f32⟩
  | 44 => ⟨S100000x128, .f32⟩
  | 45 => ⟨S100000x128, .f32⟩
  | 46 => ⟨S1x128, .f32⟩
  | 47 => ⟨S1x128, .f32⟩
  | 48 => ⟨S100000x128, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x128, .f32⟩
  | 58 => ⟨S_, .f32⟩
  | 59 => ⟨S100000x128, .f32⟩
  | 60 => ⟨S500000x1, .i32⟩
  | 61 => ⟨S100000x128, .f32⟩
  | 62 => ⟨S_, .f32⟩
  | 63 => ⟨S500000x1, .f32⟩
  | 64 => ⟨S_, .f32⟩
  | 65 => ⟨S100000x1, .f32⟩
  | 66 => ⟨S500000x1, .i32⟩
  | 67 => ⟨S100000x1, .f32⟩
  | 68 => ⟨S_, .f32⟩
  | 69 => ⟨S100000x1, .f32⟩
  | 70 => ⟨S100000x1, .f32⟩
  | 71 => ⟨S100000x128, .f32⟩
  | 72 => ⟨S100000x128, .f32⟩
  | 73 => ⟨S1x128, .f32⟩
  | 74 => ⟨S1x128, .f32⟩
  | 75 => ⟨S100000x128, .f32⟩
  | 76 => ⟨S_, .i32⟩
  | 77 => ⟨S500000, .i32⟩
  | 78 => ⟨S500000, .i1⟩
  | 79 => ⟨S_, .i32⟩
  | 80 => ⟨S500000, .i32⟩
  | 81 => ⟨S500000, .i32⟩
  | 82 => ⟨S500000, .i32⟩
  | 83 => ⟨S500000x1, .i32⟩
  | 84 => ⟨S500000x128, .f32⟩
  | 85 => ⟨S_, .f32⟩
  | 86 => ⟨S100000x128, .f32⟩
  | 87 => ⟨S500000x1, .i32⟩
  | 88 => ⟨S100000x128, .f32⟩
  | 89 => ⟨S_, .f32⟩
  | 90 => ⟨S500000x1, .f32⟩
  | 91 => ⟨S_, .f32⟩
  | 92 => ⟨S100000x1, .f32⟩
  | 93 => ⟨S500000x1, .i32⟩
  | 94 => ⟨S100000x1, .f32⟩
  | 95 => ⟨S_, .f32⟩
  | 96 => ⟨S100000x1, .f32⟩
  | 97 => ⟨S100000x1, .f32⟩
  | 98 => ⟨S100000x128, .f32⟩
  | 99 => ⟨S100000x128, .f32⟩
  | 100 => ⟨S1x1, .f32⟩
  | 101 => ⟨S1x1, .f32⟩
  | 102 => ⟨S100000x1, .f32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x128, .f32⟩
  | 112 => ⟨S_, .f32⟩
  | 113 => ⟨S100000x128, .f32⟩
  | 114 => ⟨S500000x1, .i32⟩
  | 115 => ⟨S100000x128, .f32⟩
  | 116 => ⟨S_, .f32⟩
  | 117 => ⟨S500000x1, .f32⟩
  | 118 => ⟨S_, .f32⟩
  | 119 => ⟨S100000x1, .f32⟩
  | 120 => ⟨S500000x1, .i32⟩
  | 121 => ⟨S100000x1, .f32⟩
  | 122 => ⟨S_, .f32⟩
  | 123 => ⟨S100000x1, .f32⟩
  | 124 => ⟨S100000x1, .f32⟩
  | 125 => ⟨S100000x128, .f32⟩
  | 126 => ⟨S100000x128, .f32⟩
  | 127 => ⟨S1x1, .f32⟩
  | _ => ⟨S100000x128, .f32⟩

abbrev hbmTy0_1 (i : Nat) : BufTy := match i % 128 with
  | 0 => ⟨S1x1, .f32⟩
  | 1 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x1, .f32⟩
  | .local _ .vmem, ⟨26, _⟩ => ⟨S1x128, .f32⟩
  | .local _ .vmem, ⟨27, _⟩ => ⟨S1x1, .f32⟩
  | .local _ .vmem, ⟨28, _⟩ => ⟨S5000x1, .f32⟩
  | .local _ .vmem, ⟨29, _⟩ => ⟨S5000x1, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x1, .f32⟩
  | .local _ .vmem, ⟨36, _⟩ => ⟨S1x128, .f32⟩
  | .local _ .vmem, ⟨37, _⟩ => ⟨S1x1, .f32⟩
  | .local _ .vmem, ⟨38, _⟩ => ⟨S5000x1, .f32⟩
  | .local _ .vmem, ⟨39, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_4 : Ref sig .tc := ⟨.hbm, 49, rfl⟩
abbrev main_v21 : Ref sig .tc := ⟨.hbm, 50, rfl⟩
abbrev main_v22 : Ref sig .tc := ⟨.hbm, 51, rfl⟩
abbrev main_c_5 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_7 : Ref sig .tc := ⟨.hbm, 62, rfl⟩
abbrev main_v31 : Ref sig .tc := ⟨.hbm, 63, rfl⟩
abbrev main_cst_8 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_9 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_c_10 : Ref sig .tc := ⟨.hbm, 76, rfl⟩
abbrev main_v42 : Ref sig .tc := ⟨.hbm, 77, rfl⟩
abbrev main_v43 : Ref sig .tc := ⟨.hbm, 78, rfl⟩
abbrev main_c_11 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_12 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_13 : Ref sig .tc := ⟨.hbm, 89, rfl⟩
abbrev main_v52 : Ref sig .tc := ⟨.hbm, 90, rfl⟩
abbrev main_cst_14 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_15 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_c_16 : Ref sig .tc := ⟨.hbm, 103, rfl⟩
abbrev main_v63 : Ref sig .tc := ⟨.hbm, 104, rfl⟩
abbrev main_v64 : Ref sig .tc := ⟨.hbm, 105, rfl⟩
abbrev main_c_17 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_18 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_19 : Ref sig .tc := ⟨.hbm, 116, rfl⟩
abbrev main_v73 : Ref sig .tc := ⟨.hbm, 117, rfl⟩
abbrev main_cst_20 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_21 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S500000x1 : S_.BroadcastsInDim S500000x1 (![] : Fin 0 → Fin S500000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S1_S1x1 : S1.ShapeCasts S1x1
  transposes_S1x128_p1_0_S128x1 : S1x128.Transposes [1, 0] S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000x1_S500000x1_S500000x1_1_0_0_1_wf : ScatterDims.WF S100000x1 S500000x1 S500000x1 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S100000x1.size a
  hwx2_6 : ∀ i : grid2.Coords, EltTy.bits .f32 = 32 ∨ (Rect.block (s := S100000x1) S5000x1.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x1.size a ≤ S100000x1.size a
  hwx3_6 : ∀ i : grid3.Coords, EltTy.bits .f32 = 32 ∨ (Rect.block (s := S100000x1) S5000x1.size (cc3_transform_6 i) (hinb3_6 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v20) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62) S5000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v82) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v83) S5000x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000x1 : Shape := ⟨2, ![100000, 1]⟩
abbrev S128x1 : Shape := ⟨2, ![128, 1]⟩
abbrev S1x1 : Shape := ⟨2, ![1, 1]⟩

abbrev nBuf : Space → Nat
  | .hbm => 168
  | .vmem => 0
  | .smem => 0
  | _ => 0

abbrev hbmTy0_0 (i : Nat) : BufTy := match i % 128 with
  | 0 => ⟨S100000x128, .f32⟩
  | 1 => ⟨S100000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1x128, .f32⟩
  | 11 => ⟨S1, .f32⟩
  | 12 => ⟨S1x128, .f32⟩
  | 13 => ⟨S1, .f32⟩
  | 14 => ⟨S1x128, .f32⟩
  | 15 => ⟨S1, .f32⟩
  | 16 => ⟨S1x128, .f32⟩
  | 17 => ⟨S1, .f32⟩
  | 18 => ⟨S500000, .i32⟩
  | 19 => ⟨S500000, .i32⟩
  | 20 => ⟨S500000, .i32⟩
  | 21 => ⟨S500000, .i32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x128, .f32⟩
  | 31 => ⟨S_, .f32⟩
  | 32 => ⟨S100000x128, .f32⟩
  | 33 => ⟨S500000x1, .i32⟩
  | 34 => ⟨S100000x128, .f32⟩
  | 35 => ⟨S_, .f32⟩
  | 36 => ⟨S500000x1, .f32⟩
  | 37 => ⟨S_, .f32⟩
  | 38 => ⟨S100000x1, .f32⟩
  | 39 => ⟨S500000x1, .i32⟩
  | 40 => ⟨S100000x1, .f32⟩
  | 41 => ⟨S_, .f32⟩
  | 42 => ⟨S100000x1, .f32⟩
  | 43 => ⟨S100000x1, .f32⟩
  | 44 => ⟨S100000x128, .f32⟩
  | 45 => ⟨S100000x128, .f32⟩
  | 46 => ⟨S128x128, .f32⟩
  | 47 => ⟨S100000x128, .f32⟩
  | 48 => ⟨S1x128, .f32⟩
  | 49 => ⟨S100000x128, .f32⟩
  | 50 => ⟨S100000x128, .f32⟩
  | 51 => ⟨S128x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x128, .f32⟩
  | 69 => ⟨S_, .f32⟩
  | 70 => ⟨S100000x128, .f32⟩
  | 71 => ⟨S500000x1, .i32⟩
  | 72 => ⟨S100000x128, .f32⟩
  | 73 => ⟨S_, .f32⟩
  | 74 => ⟨S500000x1, .f32⟩
  | 75 => ⟨S_, .f32⟩
  | 76 => ⟨S100000x1, .f32⟩
  | 77 => ⟨S500000x1, .i32⟩
  | 78 => ⟨S100000x1, .f32⟩
  | 79 => ⟨S_, .f32⟩
  | 80 => ⟨S100000x1, .f32⟩
  | 81 => ⟨S100000x1, .f32⟩
  | 82 => ⟨S100000x128, .f32⟩
  | 83 => ⟨S100000x128, .f32⟩
  | 84 => ⟨S128x128, .f32⟩
  | 85 => ⟨S100000x128, .f32⟩
  | 86 => ⟨S1x128, .f32⟩
  | 87 => ⟨S100000x128, .f32⟩
  | 88 => ⟨S100000x128, .f32⟩
  | 89 => ⟨S128x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x128, .f32⟩
  | 107 => ⟨S_, .f32⟩
  | 108 => ⟨S100000x128, .f32⟩
  | 109 => ⟨S500000x1, .i32⟩
  | 110 => ⟨S100000x128, .f32⟩
  | 111 => ⟨S_, .f32⟩
  | 112 => ⟨S500000x1, .f32⟩
  | 113 => ⟨S_, .f32⟩
  | 114 => ⟨S100000x1, .f32⟩
  | 115 => ⟨S500000x1, .i32⟩
  | 116 => ⟨S100000x1, .f32⟩
  | 117 => ⟨S_, .f32⟩
  | 118 => ⟨S100000x1, .f32⟩
  | 119 => ⟨S100000x1, .f32⟩
  | 120 => ⟨S100000x128, .f32⟩
  | 121 => ⟨S100000x128, .f32⟩
  | 122 => ⟨S128x1, .f32⟩
  | 123 => ⟨S100000x1, .f32⟩
  | 124 => ⟨S1x1, .f32⟩
  | 125 => ⟨S100000x1, .f32⟩
  | 126 => ⟨S100000x1, .f32⟩
  | 127 => ⟨S128x1, .f32⟩
  | _ => ⟨S100000x128, .f32⟩

abbrev hbmTy0_1 (i : Nat) : BufTy := match i % 128 with
  | 0 => ⟨S100000x1, .f32⟩
  | 1 => ⟨S100000x1, .f32⟩
  | 2 => ⟨S1x1, .f32⟩
  | 3 => ⟨S100000x1, .f32⟩
  | 4 => ⟨S100000x1, .f32⟩
  | 5 => ⟨S_, .i32⟩
  | 6 => ⟨S500000, .i32⟩
  | 7 => ⟨S500000, .i1⟩
  | 8 => ⟨S_, .i32⟩
  | 9 => ⟨S500000, .i32⟩
  | 10 => ⟨S500000, .i32⟩
  | 11 => ⟨S500000, .i32⟩
  | 12 => ⟨S500000x1, .i32⟩
  | 13 => ⟨S500000x128, .f32⟩
  | 14 => ⟨S_, .f32⟩
  | 15 => ⟨S100000x128, .f32⟩
  | 16 => ⟨S500000x1, .i32⟩
  | 17 => ⟨S100000x128, .f32⟩
  | 18 => ⟨S_, .f32⟩
  | 19 => ⟨S500000x1, .f32⟩
  | 20 => ⟨S_, .f32⟩
  | 21 => ⟨S100000x1, .f32⟩
  | 22 => ⟨S500000x1, .i32⟩
  | 23 => ⟨S100000x1, .f32⟩
  | 24 => ⟨S_, .f32⟩
  | 25 => ⟨S100000x1, .f32⟩
  | 26 => ⟨S100000x1, .f32⟩
  | 27 => ⟨S100000x128, .f32⟩
  | 28 => ⟨S100000x128, .f32⟩
  | 29 => ⟨S128x1, .f32⟩
  | 30 => ⟨S100000x1, .f32⟩
  | 31 => ⟨S1x1, .f32⟩
  | 32 => ⟨S100000x1, .f32⟩
  | 33 => ⟨S100000x1, .f32⟩
  | 34 => ⟨S128x1, .f32⟩
  | 35 => ⟨S100000x1, .f32⟩
  | 36 => ⟨S100000x1, .f32⟩
  | 37 => ⟨S1x1, .f32⟩
  | 38 => ⟨S100000x1, .f32⟩
  | 39 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_call0_cst : Ref sig .tc := ⟨.hbm, 57, rfl⟩
abbrev main_call0_v0 : Ref sig .tc := ⟨.hbm, 58, rfl⟩
abbrev main_v29 : Ref sig .tc := ⟨.hbm, 59, rfl⟩
abbrev main_c_4 : Ref sig .tc := ⟨.hbm, 60, rfl⟩
abbrev main_v30 : Ref sig .tc := ⟨.hbm, 61, rfl⟩
abbrev main_v31 : Ref sig .tc := ⟨.hbm, 62, rfl⟩
abbrev main_c_5 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_6 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_7 : Ref sig .tc := ⟨.hbm, 73, rfl⟩
abbrev main_v40 : Ref sig .tc := ⟨.hbm, 74, rfl⟩
abbrev main_cst_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_9 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_call1_cst : Ref sig .tc := ⟨.hbm, 95, rfl⟩
abbrev main_call1_v0 : Ref sig .tc := ⟨.hbm, 96, rfl⟩
abbrev main_v59 : Ref sig .tc := ⟨.hbm, 97, rfl⟩
abbrev main_c_10 : Ref sig .tc := ⟨.hbm, 98, rfl⟩
abbrev main_v60 : Ref sig .tc := ⟨.hbm, 99, rfl⟩
abbrev main_v61 : Ref sig .tc := ⟨.hbm, 100, rfl⟩
abbrev main_c_11 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_12 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_13 : Ref sig .tc := ⟨.hbm, 111, rfl⟩
abbrev main_v70 : Ref sig .tc := ⟨.hbm, 112, rfl⟩
abbrev main_cst_14 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_15 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_c_16 : Ref sig .tc := ⟨.hbm, 133, rfl⟩
abbrev main_v89 : Ref sig .tc := ⟨.hbm, 134, rfl⟩
abbrev main_v90 : Ref sig .tc := ⟨.hbm, 135, rfl⟩
abbrev main_c_17 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_18 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_19 : Ref sig .tc := ⟨.hbm, 146, rfl⟩
abbrev main_v99 : Ref sig .tc := ⟨.hbm, 147, rfl⟩
abbrev main_cst_20 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_21 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S500000x1 : S_.BroadcastsInDim S500000x1 (![] : Fin 0 → Fin S500000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000x1_S500000x1_S500000x1_1_0_0_1_wf : ScatterDims.WF S100000x1 S500000x1 S500000x1 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.LibMeanConv.lean ====
/-
  One round of a graph layer that joins a node's own features with the mean of its neighbours' features.

  For node features `x : [M, K]`, aggregated neighbour features `nb : [M, K]`, two weight matrices `ws wn : [N, K]`
  (stored output-major, so the layer multiplies by their transposes) and two biases given as `1 × N` rows, the layer's
  entry `(p, q)` is

      (((∑ k, x (p, k) · ws (q, k)) + bs q) + ∑ k, nb (p, k) · wn (q, k)) + bn q,

  the four terms added in exactly this order (addition of extended reals is not associative once both infinities
  occur, so the order is part of the definition). `combine` is that array, `combineRelu` the array clamped below at zero.

  An entry depends on ONE row of `x` and the same row of `nb` only (`combineAt_rows`): the layer computed on a block of
  rows is that block of rows of the layer.
-/
import Idealize.ShloMosaic.PureOps.Ideal
import Idealize.ShloMosaic.Lib.ValueIdx

noncomputable section

open scoped BigOperators

namespace Cert.MeanConv

open Idealize.ShloMosaic Idealize.ShloMosaic.ValueIdx

/-- An `M × N` array of extended reals. -/
abbrev Mat (M N : ℕ) := (⟨2, ![M, N]⟩ : Shape).Idx → EReal

/-- A length-`N` vector laid out as a `1 × N` row. -/
def rowOf {N : ℕ} (b : (⟨1, ![N]⟩ : Shape).Idx → EReal) : Mat 1 N := fun i => b (ix1 (i 1))

theorem rowOf_ix2 {N : ℕ} (b : (⟨1, ![N]⟩ : Shape).Idx → EReal) (z : Fin 1) (q : Fin N) : rowOf b (ix2 z q) = b (ix1 q) := rfl

/-- Entry `(p, q)` of `x · wsᵀ + bs + nb · wnᵀ + bn`, the terms added from the left. -/
def combineAt {M K N : ℕ} (x nb : Mat M K) (ws wn : Mat N K) (bs bn : Mat 1 N) (p : Fin M) (q : Fin N) : EReal :=
  (((∑ k : Fin K, x (ix2 p k) * ws (ix2 q k)) + bs (ix2 (0 : Fin 1) q)) + ∑ k : Fin K, nb (ix2 p k) * wn (ix2 q k))
    + bn (ix2 (0 : Fin 1) q)

/-- The array `x · wsᵀ + bs + nb · wnᵀ + bn`. -/
def combine {M K N : ℕ} (x nb : Mat M K) (ws wn : Mat N K) (bs bn : Mat 1 N) : Mat M N :=
  fun i => combineAt x nb ws wn bs bn (i 0) (i 1)

/-- The same array with every entry clamped below at zero. -/
def combineRelu {M K N : ℕ} (x nb : Mat M K) (ws wn : Mat N K) (bs bn : Mat 1 N) : Mat M N :=
  fun i => max (combineAt x nb ws wn bs bn (i 0) (i 1)) 0

theorem combine_ix2 {M K N : ℕ} (x nb : Mat M K) (ws wn : Mat N K) (bs bn : Mat 1 N) (p : Fin M) (q : Fin N) :
    combine x nb ws wn bs bn (ix2 p q) = combineAt x nb ws wn bs bn p q := rfl

theorem combineRelu_ix2 {M K N : ℕ} (x nb : Mat M K) (ws wn : Mat N K) (bs bn : Mat 1 N) (p : Fin M) (q : Fin N) :
    combineRelu x nb ws wn bs bn (ix2 p q) = max (combineAt x nb ws wn bs bn p q) 0 := rfl

/-- Row `p` of the layer on a block of rows is row `P` of the layer on the whole arrays, when row `p` of each block is
    row `P` of its array. -/
theorem combineAt_rows {M m K N : ℕ} (x nb : Mat M K) (xb nbb : Mat m K) (ws wn : Mat N K) (bs bn : Mat 1 N)
    (p : Fin m) (P : Fin M) (q : Fin N) (hx : ∀ k : Fin K, xb (ix2 p k) = x (ix2 P k))
    (hn : ∀ k : Fin K, nbb (ix2 p k) = nb (ix2 P k)) :
    combineAt xb nbb ws wn bs bn p q = combineAt x nb ws wn bs bn P q := by
  have e1 : (∑ k : Fin K, xb (ix2 p k) * ws (ix2 q k)) = ∑ k : Fin K, x (ix2 P k) * ws (ix2 q k) :=
    Finset.sum_congr rfl fun k _ => by rw [hx k]
  have e2 : (∑ k : Fin K, nbb (ix2 p k) * wn (ix2 q k)) = ∑ k : Fin K, nb (ix2 P k) * wn (ix2 q k) :=
    Finset.sum_congr rfl fun k _ => by rw [hn k]
  unfold combineAt
  rw [e1, e2]

end Cert.MeanConv

end
-- ==== Proof.Model.lean ====
/-
  The whole computation as functions of the input arrays: two rounds of message passing between two kinds of nodes
  (call them users and tweets), every node taking the MEAN of the features of its in-neighbours.

  `segMean x src dst` is the aggregation: row `d` of the result is the sum of the rows `x[src e]` over the edges `e` with
  `dst e = d`, divided by the number of such edges (or by one when there is none). Both programs compute it by the same
  chain of host operations (a gather of rows, two scatter-adds, a maximum with one and a division), and nothing in this
  certificate depends on what that chain computes: it is kept closed, as the reference program's own term for it.

  `hidden` is the first round for one kind of node: its own features and the aggregated features of the other kind
  through the layer `combineRelu`. `score` is the second round, one output column and no clamp. The two results are
  `score` of `hidden`s, written out in `outUser` and `outTweet`.
-/
import proofs.«164524_j12790412607511_1_alg».proof.Proof.LibMeanConv
import proofs.«164524_j12790412607511_1_alg».proof.Proof.Gen.ReferenceIdeal.Read

noncomputable section

namespace Cert.MeanConv

open Idealize.ShloMosaic Idealize.ShloMosaic.ValueIdx
open Cert.ReferenceIdeal (S100000x128 S128x128 S128 S1x128 S1 S500000 S100000x1)

/-- Node features, `100000 × 128`. -/
abbrev Feat := (⟨S100000x128, .f32⟩ : BufTy).Contents (Elt Ideal)
/-- A first-round weight matrix, `128 × 128`, and bias, `128`. -/
abbrev Wt := (⟨S128x128, .f32⟩ : BufTy).Contents (Elt Ideal)
abbrev Bias := (⟨S128, .f32⟩ : BufTy).Contents (Elt Ideal)
/-- A second-round weight matrix, `1 × 128`, and bias, `1`. -/
abbrev Wt1 := (⟨S1x128, .f32⟩ : BufTy).Contents (Elt Ideal)
abbrev Bias1 := (⟨S1, .f32⟩ : BufTy).Contents (Elt Ideal)
/-- One endpoint per edge, `500000` node numbers. -/
abbrev Edges := (⟨S500000, .i32⟩ : BufTy).Contents (Elt Ideal)
/-- One number per node, `100000 × 1`. -/
abbrev Score := (⟨S100000x1, .f32⟩ : BufTy).Contents (Elt Ideal)

/-- The mean of the source rows over each node's incoming edges. -/
def segMean (x : Feat) (src dst : Edges) : Feat := Cert.ReferenceIdeal.Read.val_main_v17 (F := Ideal) x src dst

/-- First round for one kind of node: own features `self`, the other kind's features `other` aggregated along the edges. -/
def hidden (self other : Feat) (ws : Wt) (bs : Bias) (wn : Wt) (bn : Bias) (src dst : Edges) : Feat :=
  combineRelu self (segMean other src dst) ws wn (rowOf bs) (rowOf bn)

/-- Second round for one kind of node, from the two kinds' first-round features. -/
def score (self other : Feat) (ws : Wt1) (bs : Bias1) (wn : Wt1) (bn : Bias1) (src dst : Edges) : Score :=
  combine self (segMean other src dst) ws wn (rowOf bs) (rowOf bn)

/-- The users' result: second round on the users' first-round features, with the tweets' aggregated along the second
    relation. Arguments in the order of the programs' inputs (features, first-round weights and biases, the second-round
    weights and biases of this result, the four edge-endpoint arrays). -/
def outUser (xu xt : Feat) (w2 : Wt) (b3 : Bias) (w4 : Wt) (b5 : Bias) (w6 : Wt) (b7 : Bias) (w8 : Wt) (b9 : Bias)
    (w14 : Wt1) (b15 : Bias1) (w16 : Wt1) (b17 : Bias1) (s18 d19 s20 d21 : Edges) : Score :=
  score (hidden xu xt w6 b7 w8 b9 s20 d21) (hidden xt xu w2 b3 w4 b5 s18 d19) w14 b15 w16 b17 s20 d21

/-- The tweets' result: second round on the tweets' first-round features, with the users' aggregated along the first
    relation. -/
def outTweet (xu xt : Feat) (w2 : Wt) (b3 : Bias) (w4 : Wt) (b5 : Bias) (w6 : Wt) (b7 : Bias) (w8 : Wt) (b9 : Bias)
    (w10 : Wt1) (b11 : Bias1) (w12 : Wt1) (b13 : Bias1) (s18 d19 s20 d21 : Edges) : Score :=
  score (hidden xt xu w2 b3 w4 b5 s18 d19) (hidden xu xt w6 b7 w8 b9 s20 d21) w10 b11 w12 b13 s18 d19

end Cert.MeanConv

end
-- ==== Proof.RefValue.lean ====
/-
  The reference program's four results, written as the layer functions of the model.

  The reference computes each round on whole arrays: a transpose of the weight matrix, a contraction over the feature
  axis, a bias broadcast along the rows, and three additions in the order
  (((own · wsᵀ) + bs) + (aggregated · wnᵀ)) + bn; the first round ends with a maximum against the zero array. Read at an
  entry `(p, q)`, a contraction with a transposed matrix is `∑ k, x (p, k) · w (q, k)` and a broadcast bias is `b q`, so
  each stage before the clamp is `combineAt` entry by entry, with no law of arithmetic used: the four terms are added in
  the same order on both sides.

  The aggregation of the later rounds is the same chain of operations as the first one on other arrays, so it is the
  model's `segMean` by unfolding definitions; the chain itself is never opened.
-/
import proofs.«164524_j12790412607511_1_alg».proof.Proof.Model

noncomputable section

open scoped BigOperators

namespace Cert.MeanConv.Ref

open Idealize.ShloMosaic Idealize.ShloMosaic.ValueIdx Cert.MeanConv Cert.ReferenceIdeal

/-! ## The aggregations of the later rounds are `segMean` -/

theorem seg47 (a1 : Feat) (a20 a21 : Edges) : Read.val_main_v47 (F := Ideal) a1 a20 a21 = segMean a1 a20 a21 := rfl

theorem seg77 (a0 a1 : Feat) (a6 : Wt) (a7 : Bias) (a8 : Wt) (a9 : Bias) (a18 a19 a20 a21 : Edges) :
    Read.val_main_v77 (F := Ideal) a0 a1 a6 a7 a8 a9 a18 a19 a20 a21
      = segMean (Read.val_main_v59 (F := Ideal) a0 a1 a6 a7 a8 a9 a20 a21) a18 a19 := rfl

theorem seg106 (a0 a1 : Feat) (a2 : Wt) (a3 : Bias) (a4 : Wt) (a5 : Bias) (a18 a19 a20 a21 : Edges) :
    Read.val_main_v106 (F := Ideal) a0 a1 a2 a3 a4 a5 a18 a19 a20 a21
      = segMean (Read.val_main_v29 (F := Ideal) a0 a1 a2 a3 a4 a5 a18 a19) a20 a21 := rfl

/-! ## First round, tweets: stages 19 to 29 -/

theorem v19_ix2 (x : Feat) (w : Wt) (p : Fin 100000) (q : Fin 128) :
    Read.val_main_v19 (F := Ideal) x w (ix2 p q) = ∑ k : Fin 128, x (ix2 p k) * w (ix2 q k) := by
  rw [Read.val_main_v19_apply]
  refine Finset.sum_congr rfl fun k _ => ?_
  rw [Read.val_main_v18_apply]
  have e1 : Read.lidx_main_v19 (ix2 p q) k = ix2 p k := by
    funext a; match a with | ⟨0, _⟩ => rfl | ⟨1, _⟩ => rfl
  have e2 : Read.idx_main_v18 (Read.ridx_main_v19 (ix2 p q) k) = ix2 q k := by
    funext a; match a with | ⟨0, _⟩ => rfl | ⟨1, _⟩ => rfl
  rw [e1, e2]

theorem v24_ix2 (a0 : Feat) (w : Wt) (a18 a19 : Edges) (p : Fin 100000) (q : Fin 128) :
    Read.val_main_v24 (F := Ideal) a0 w a18 a19 (ix2 p q)
      = ∑ k : Fin 128, segMean a0 a18 a19 (ix2 p k) * w (ix2 q k) := by
  rw [Read.val_main_v24_apply]
  refine Finset.sum_congr rfl fun k _ => ?_
  rw [Read.val_main_v23_apply]
  have e1 : Read.lidx_main_v24 (ix2 p q) k = ix2 p k := by
    funext a; match a with | ⟨0, _⟩ => rfl | ⟨1, _⟩ => rfl
  have e2 : Read.idx_main_v23 (Read.ridx_main_v24 (ix2 p q) k) = ix2 q k := by
    funext a; match a with | ⟨0, _⟩ => rfl | ⟨1, _⟩ => rfl
  rw [e1, e2]
  rfl

theorem v21_ix2 (b : Bias) (p : Fin 100000) (q : Fin 128) :
    Read.val_main_v21 (F := Ideal) b (ix2 p q) = b (ix1 q) := by
  rw [Read.val_main_v21_apply, Read.val_main_v20_apply]
  have e : Read.idx_main_v20 (Read.idx_main_v21 (ix2 p q)) = ix1 q := by
    funext a; match a with | ⟨0, _⟩ => rfl
  rw [e]

theorem v27_ix2 (b : Bias) (p : Fin 100000) (q : Fin 128) :
    Read.val_main_v27 (F := Ideal) b (ix2 p q) = b (ix1 q) := by
  rw [Read.val_main_v27_apply, Read.val_main_v26_apply]
  have e : Read.idx_main_v26 (Read.idx_main_v27 (ix2 p q)) = ix1 q := by
    funext a; match a with | ⟨0, _⟩ => rfl
  rw [e]

theorem v28_ix2 (a0 a1 : Feat) (a2 : Wt) (a3 : Bias) (a4 : Wt) (a5 : Bias) (a18 a19 : Edges) (p : Fin 100000)
    (q : Fin 128) :
    Read.val_main_v28 (F := Ideal) a0 a1 a2 a3 a4 a5 a18 a19 (ix2 p q)
      = combineAt a1 (segMean a0 a18 a19) a2 a4 (rowOf a3) (rowOf a5) p q := by
  rw [Read.val_main_v28_apply, Read.val_main_v25_apply, Read.val_main_v22_apply, v19_ix2, v21_ix2, v24_ix2, v27_ix2]
  rfl

theorem relu0_zero (i : S100000x128.Idx) : Read.val_main_call0_v0 (F := Ideal) i = (0 : EReal) := by
  rw [Read.val_main_call0_v0_apply, Read.val_main_call0_cst_apply]
  exact Ideal.ofBits_zero_f32

theorem ref_hiddenT (a0 a1 : Feat) (a2 : Wt) (a3 : Bias) (a4 : Wt) (a5 : Bias) (a18 a19 : Edges) :
    Read.val_main_v29 (F := Ideal) a0 a1 a2 a3 a4 a5 a18 a19 = hidden a1 a0 a2 a3 a4 a5 a18 a19 := by
  funext i
  obtain ⟨p, q, rfl⟩ : ∃ (p : Fin 100000) (q : Fin 128), i = ix2 p q := ⟨i 0, i 1, eq_ix2 i⟩
  rw [Read.val_main_v29_apply, relu0_zero, v28_ix2]
  rfl

/-! ## First round, users: stages 49 to 59 -/

theorem v49_ix2 (x : Feat) (w : Wt) (p : Fin 100000) (q : Fin 128) :
    Read.val_main_v49 (F := Ideal) x w (ix2 p q) = ∑ k : Fin 128, x (ix2 p k) * w (ix2 q k) := by
  rw [Read.val_main_v49_apply]
  refine Finset.sum_congr rfl fun k _ => ?_
  rw [Read.val_main_v48_apply]
  have e1 : Read.lidx_main_v49 (ix2 p q) k = ix2 p k := by
    funext a; match a with | ⟨0, _⟩ => rfl | ⟨1, _⟩ => rfl
  have e2 : Read.idx_main_v48 (Read.ridx_main_v49 (ix2 p q) k) = ix2 q k := by
    funext a; match a with | ⟨0, _⟩ => rfl | ⟨1, _⟩ => rfl
  rw [e1, e2]

theorem v54_ix2 (a1 : Feat) (w : Wt) (a20 a21 : Edges) (p : Fin 100000) (q : Fin 128) :
    Read.val_main_v54 (F := Ideal) a1 w a20 a21 (ix2 p q)
      = ∑ k : Fin 128, segMean a1 a20 a21 (ix2 p k) * w (ix2 q k) := by
  rw [Read.val_main_v54_apply]
  refine Finset.sum_congr rfl fun k _ => ?_
  rw [Read.val_main_v53_apply]
  have e1 : Read.lidx_main_v54 (ix2 p q) k = ix2 p k := by
    funext a; match a with | ⟨0, _⟩ => rfl | ⟨1, _⟩ => rfl
  have e2 : Read.idx_main_v53 (Read.ridx_main_v54 (ix2 p q) k) = ix2 q k := by
    funext a; match a with | ⟨0, _⟩ => rfl | ⟨1, _⟩ => rfl
  rw [e1, e2, seg47]

theorem v51_ix2 (b : Bias) (p : Fin 100000) (q : Fin 128) :
    Read.val_main_v51 (F := Ideal) b (ix2 p q) = b (ix1 q) := by
  rw [Read.val_main_v51_apply, Read.val_main_v50_apply]
  have e : Read.idx_main_v50 (Read.idx_main_v51 (ix2 p q)) = ix1 q := by
    funext a; match a with | ⟨0, _⟩ => rfl
  rw [e]

theorem v57_ix2 (b : Bias) (p : Fin 100000) (q : Fin 128) :
    Read.val_main_v57 (F := Ideal) b (ix2 p q) = b (ix1 q) := by
  rw [Read.val_main_v57_apply, Read.val_main_v56_apply]
  have e : Read.idx_main_v56 (Read.idx_main_v57 (ix2 p q)) = ix1 q := by
    funext a; match a with | ⟨0, _⟩ => rfl
  rw [e]

theorem v58_ix2 (a0 a1 : Feat) (a6 : Wt) (a7 : Bias) (a8 : Wt) (a9 : Bias) (a20 a21 : Edges) (p : Fin 100000)
    (q : Fin 128) :
    Read.val_main_v58 (F := Ideal) a0 a1 a6 a7 a8 a9 a20 a21 (ix2 p q)
      = combineAt a0 (segMean a1 a20 a21) a6 a8 (rowOf a7) (rowOf a9) p q := by
  rw [Read.val_main_v58_apply, Read.val_main_v55_apply, Read.val_main_v52_apply, v49_ix2, v51_ix2, v54_ix2, v57_ix2]
  rfl

theorem relu1_zero (i : S100000x128.Idx) : Read.val_main_call1_v0 (F := Ideal) i = (0 : EReal) := by
  rw [Read.val_main_call1_v0_apply, Read.val_main_call1_cst_apply]
  exact Ideal.ofBits_zero_f32

theorem ref_hiddenU (a0 a1 : Feat) (a6 : Wt) (a7 : Bias) (a8 : Wt) (a9 : Bias) (a20 a21 : Edges) :
    Read.val_main_v59 (F := Ideal) a0 a1 a6 a7 a8 a9 a20 a21 = hidden a0 a1 a6 a7 a8 a9 a20 a21 := by
  funext i
  obtain ⟨p, q, rfl⟩ : ∃ (p : Fin 100000) (q : Fin 128), i = ix2 p q := ⟨i 0, i 1, eq_ix2 i⟩
  rw [Read.val_main_v59_apply, relu1_zero, v58_ix2]
  rfl

/-! ## Second round, tweets: stages 79 to 88 -/

theorem v79_ix2 (a0 a1 : Feat) (a2 : Wt) (a3 : Bias) (a4 : Wt) (a5 : Bias) (w : Wt1) (a18 a19 : Edges) (p : Fin 100000) (q : Fin 1) :
    Read.val_main_v79 (F := Ideal) a0 a1 a2 a3 a4 a5 w a18 a19 (ix2 p q)
      = ∑ k : Fin 128, (hidden a1 a0 a2 a3 a4 a5 a18 a19) (ix2 p k) * w (ix2 q k) := by
  rw [Read.val_main_v79_apply]
  refine Finset.sum_congr rfl fun k _ => ?_
  rw [Read.val_main_v78_apply]
  have e1 : Read.lidx_main_v79 (ix2 p q) k = ix2 p k := by
    funext a; match a with | ⟨0, _⟩ => rfl | ⟨1, _⟩ => rfl
  have e2 : Read.idx_main_v78 (Read.ridx_main_v79 (ix2 p q) k) = ix2 q k := by
    funext a; match a with | ⟨0, _⟩ => rfl | ⟨1, _⟩ => rfl
  rw [e1, e2, ref_hiddenT]

theorem v84_ix2 (a0 a1 : Feat) (a6 : Wt) (a7 : Bias) (a8 : Wt) (a9 : Bias) (w : Wt1) (a18 a19 a20 a21 : Edges) (p : Fin 100000) (q : Fin 1) :
    Read.val_main_v84 (F := Ideal) a0 a1 a6 a7 a8 a9 w a18 a19 a20 a21 (ix2 p q)
      = ∑ k : Fin 128, segMean (hidden a0 a1 a6 a7 a8 a9 a20 a21) a18 a19 (ix2 p k) * w (ix2 q k) := by
  rw [Read.val_main_v84_apply]
  refine Finset.sum_congr rfl fun k _ => ?_
  rw [Read.val_main_v83_apply]
  have e1 : Read.lidx_main_v84 (ix2 p q) k = ix2 p k := by
    funext a; match a with | ⟨0, _⟩ => rfl | ⟨1, _⟩ => rfl
  have e2 : Read.idx_main_v83 (Read.ridx_main_v84 (ix2 p q) k) = ix2 q k := by
    funext a; match a with | ⟨0, _⟩ => rfl | ⟨1, _⟩ => rfl
  rw [e1, e2, seg77, ref_hiddenU]

theorem v81_ix2 (b : Bias1) (p : Fin 100000) (q : Fin 1) :
    Read.val_main_v81 (F := Ideal) b (ix2 p q) = b (ix1 q) := by
  rw [Read.val_main_v81_apply, Read.val_main_v80_apply]
  have e : Read.idx_main_v80 (Read.idx_main_v81 (ix2 p q)) = ix1 q := by
    funext a; match a with | ⟨0, _⟩ => exact Fin.ext (show (0 : ℕ) = q.val by omega)
  rw [e]

theorem v87_ix2 (b : Bias1) (p : Fin 100000) (q : Fin 1) :
    Read.val_main_v87 (F := Ideal) b (ix2 p q) = b (ix1 q) := by
  rw [Read.val_main_v87_apply, Read.val_main_v86_apply]
  have e : Read.idx_main_v86 (Read.idx_main_v87 (ix2 p q)) = ix1 q := by
    funext a; match a with | ⟨0, _⟩ => exact Fin.ext (show (0 : ℕ) = q.val by omega)
  rw [e]

theorem v88_ix2 (a0 a1 : Feat) (a2 : Wt) (a3 : Bias) (a4 : Wt) (a5 : Bias) (a6 : Wt) (a7 : Bias) (a8 : Wt) (a9 : Bias)
    (a10 : Wt1) (a11 : Bias1) (a12 : Wt1) (a13 : Bias1) (a18 a19 a20 a21 : Edges) (p : Fin 100000) (q : Fin 1) :
    Read.val_main_v88 (F := Ideal) a0 a1 a2 a3 a4 a5 a6 a7 a8 a9 a10 a11 a12 a13 a18 a19 a20 a21 (ix2 p q)
      = combineAt (hidden a1 a0 a2 a3 a4 a5 a18 a19) (segMean (hidden a0 a1 a6 a7 a8 a9 a20 a21) a18 a19) a10 a12 (rowOf a11) (rowOf a13) p q := by
  rw [Read.val_main_v88_apply, Read.val_main_v85_apply, Read.val_main_v82_apply, v79_ix2, v81_ix2,
    v84_ix2, v87_ix2]
  rfl

theorem ref_outT (a0 a1 : Feat) (a2 : Wt) (a3 : Bias) (a4 : Wt) (a5 : Bias) (a6 : Wt) (a7 : Bias) (a8 : Wt) (a9 : Bias)
    (a10 : Wt1) (a11 : Bias1) (a12 : Wt1) (a13 : Bias1) (a18 a19 a20 a21 : Edges) :
    Read.val_main_v88 (F := Ideal) a0 a1 a2 a3 a4 a5 a6 a7 a8 a9 a10 a11 a12 a13 a18 a19 a20 a21
      = score (hidden a1 a0 a2 a3 a4 a5 a18 a19) (hidden a0 a1 a6 a7 a8 a9 a20 a21) a10 a11 a12 a13 a18 a19 := by
  funext i
  obtain ⟨p, q, rfl⟩ : ∃ (p : Fin 100000) (q : Fin 1), i = ix2 p q := ⟨i 0, i 1, eq_ix2 i⟩
  rw [v88_ix2]
  rfl

/-! ## Second round, users: stages 108 to 117 -/

theorem v108_ix2 (a0 a1 : Feat) (a6 : Wt) (a7 : Bias) (a8 : Wt) (a9 : Bias) (w : Wt1) (a20 a21 : Edges) (p : Fin 100000) (q : Fin 1) :
    Read.val_main_v108 (F := Ideal) a0 a1 a6 a7 a8 a9 w a20 a21 (ix2 p q)
      = ∑ k : Fin 128, (hidden a0 a1 a6 a7 a8 a9 a20 a21) (ix2 p k) * w (ix2 q k) := by
  rw [Read.val_main_v108_apply]
  refine Finset.sum_congr rfl fun k _ => ?_
  rw [Read.val_main_v107_apply]
  have e1 : Read.lidx_main_v108 (ix2 p q) k = ix2 p k := by
    funext a; match a with | ⟨0, _⟩ => rfl | ⟨1, _⟩ => rfl
  have e2 : Read.idx_main_v107 (Read.ridx_main_v108 (ix2 p q) k) = ix2 q k := by
    funext a; match a with | ⟨0, _⟩ => rfl | ⟨1, _⟩ => rfl
  rw [e1, e2, ref_hiddenU]

theorem v113_ix2 (a0 a1 : Feat) (a2 : Wt) (a3 : Bias) (a4 : Wt) (a5 : Bias) (w : Wt1) (a18 a19 a20 a21 : Edges) (p : Fin 100000) (q : Fin 1) :
    Read.val_main_v113 (F := Ideal) a0 a1 a2 a3 a4 a5 w a18 a19 a20 a21 (ix2 p q)
      = ∑ k : Fin 128, segMean (hidden a1 a0 a2 a3 a4 a5 a18 a19) a20 a21 (ix2 p k) * w (ix2 q k) := by
  rw [Read.val_main_v113_apply]
  refine Finset.sum_congr rfl fun k _ => ?_
  rw [Read.val_main_v112_apply]
  have e1 : Read.lidx_main_v113 (ix2 p q) k = ix2 p k := by
    funext a; match a with | ⟨0, _⟩ => rfl | ⟨1, _⟩ => rfl
  have e2 : Read.idx_main_v112 (Read.ridx_main_v113 (ix2 p q) k) = ix2 q k := by
    funext a; match a with | ⟨0, _⟩ => rfl | ⟨1, _⟩ => rfl
  rw [e1, e2, seg106, ref_hiddenT]

theorem v110_ix2 (b : Bias1) (p : Fin 100000) (q : Fin 1) :
    Read.val_main_v110 (F := Ideal) b (ix2 p q) = b (ix1 q) := by
  rw [Read.val_main_v110_apply, Read.val_main_v109_apply]
  have e : Read.idx_main_v109 (Read.idx_main_v110 (ix2 p q)) = ix1 q := by
    funext a; match a with | ⟨0, _⟩ => exact Fin.ext (show (0 : ℕ) = q.val by omega)
  rw [e]

theorem v116_ix2 (b : Bias1) (p : Fin 100000) (q : Fin 1) :
    Read.val_main_v116 (F := Ideal) b (ix2 p q) = b (ix1 q) := by
  rw [Read.val_main_v116_apply, Read.val_main_v115_apply]
  have e : Read.idx_main_v115 (Read.idx_main_v116 (ix2 p q)) = ix1 q := by
    funext a; match a with | ⟨0, _⟩ => exact Fin.ext (show (0 : ℕ) = q.val by omega)
  rw [e]

theorem v117_ix2 (a0 a1 : Feat) (a2 : Wt) (a3 : Bias) (a4 : Wt) (a5 : Bias) (a6 : Wt) (a7 : Bias) (a8 : Wt) (a9 : Bias)
    (a14 : Wt1) (a15 : Bias1) (a16 : Wt1) (a17 : Bias1) (a18 a19 a20 a21 : Edges) (p : Fin 100000) (q : Fin 1) :
    Read.val_main_v117 (F := Ideal) a0 a1 a2 a3 a4 a5 a6 a7 a8 a9 a14 a15 a16 a17 a18 a19 a20 a21 (ix2 p q)
      = combineAt (hidden a0 a1 a6 a7 a8 a9 a20 a21) (segMean (hidden a1 a0 a2 a3 a4 a5 a18 a19) a20 a21) a14 a16 (rowOf a15) (rowOf a17) p q := by
  rw [Read.val_main_v117_apply, Read.val_main_v114_apply, Read.val_main_v111_apply, v108_ix2, v110_ix2,
    v113_ix2, v116_ix2]
  rfl

theorem ref_outU (a0 a1 : Feat) (a2 : Wt) (a3 : Bias) (a4 : Wt) (a5 : Bias) (a6 : Wt) (a7 : Bias) (a8 : Wt) (a9 : Bias)
    (a14 : Wt1) (a15 : Bias1) (a16 : Wt1) (a17 : Bias1) (a18 a19 a20 a21 : Edges) :
    Read.val_main_v117 (F := Ideal) a0 a1 a2 a3 a4 a5 a6 a7 a8 a9 a14 a15 a16 a17 a18 a19 a20 a21
      = score (hidden a0 a1 a6 a7 a8 a9 a20 a21) (hidden a1 a0 a2 a3 a4 a5 a18 a19) a14 a15 a16 a17 a20 a21 := by
  funext i
  obtain ⟨p, q, rfl⟩ : ∃ (p : Fin 100000) (q : Fin 1), i = ix2 p q := ⟨i 0, i 1, eq_ix2 i⟩
  rw [v117_ix2]
  rfl

end Cert.MeanConv.Ref

end
-- ==== Proof.KernelRun.lean ====
/-
  The idealized kernel's run, with every buffer named at its end.

  The program is eight segments: four stretches of host operations, each followed by a launch of a row-tiled kernel.
  The generated frame certificate folds the buffer contents through these segments — `W0` the launch contents, `W1` after
  the first stretch, `W2` after the first launch, … `W8` at the return — and proves that every weakly fair execution
  terminates without a fault with the argument arrays unchanged. The same application of the segment-by-segment run
  theorem proves more than it states there: at the return EVERY buffer that is not scoped to a launch holds `W8`.
  That is `run_all`; the value of the two results is then a computation of `W8` at the two result buffers.
-/
import proofs.«164524_j12790412607511_1_alg».proof.Proof.Gen.KernelIdeal.Frame

set_option maxRecDepth 16384

noncomputable section

namespace Cert.KernelIdeal.Values

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, and at the return every buffer
    `b` of the TensorCore that is not scoped to a launch holds the last boundary's contents `W8 m ρ c b`. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W8 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c b hb => h c _ (mem_uc b hb))

end Cert.KernelIdeal.Values

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.Region0Payload.lean ====
/-
  The first-round layer's arithmetic on one tile of rows, read entry by entry.

  On a tile the body holds 5000 rows of the node features `x` and of the aggregated neighbour features `nb`, the two
  128 × 128 weight matrices whole, and the two biases as 1 × 128 rows. It narrows the four matrices to a shorter float
  format (the identity on extended reals), transposes each weight matrix, multiplies into a zero accumulator, adds the
  first bias row broadcast down the rows, adds the second product, adds the second bias row, and clamps below at zero.
  A product with a transposed weight matrix at `(p, q)` is `∑ k, x (p, k) · w (q, k)`, so the entry `(p, q)` of the
  result is the layer's entry `combineAt … p q` clamped at zero, the four terms added in the layer's own order.
-/
import proofs.«164524_j12790412607511_1_alg».proof.Proof.LibMeanConv
import proofs.«164524_j12790412607511_1_alg».proof.Proof.LibPlainMatmul
import proofs.«164524_j12790412607511_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MeanConv.Region0

open Idealize.ShloMosaic Idealize.ShloMosaic.ValueIdx
open Cert.KernelIdeal Cert.KernelIdeal.Gen

/-- The tile's product with a transposed weight matrix, into the zero accumulator, at `(p, q)`. -/
theorem product_apply (x : FVec Ideal S5000x128 .f32) (w : FVec Ideal S128x128 .f32) (p : Fin 5000) (q : Fin 128) :
    matmul (F := Ideal) dot_S5000x128_S128x128_S5000x128_1_0_0_1_n_n none (truncf .bf16 x bitsLt_bf16_f32)
        (transpose S128x128 [1, 0] (truncf .bf16 w bitsLt_bf16_f32) transposes_S128x128_p1_0_S128x128)
        (constant S5000x128 .f32 0x00000000#32) (ix2 p q)
      = ∑ k : Fin 128, x (ix2 p k) * w (ix2 q k) := by
  refine (Cert.LibPlainMatmul.matmul_plain_zero_apply _ rfl none _ _ p q).trans ?_
  refine Finset.sum_congr rfl fun k _ => ?_
  rw [transpose_ix2_apply]
  rfl

/-- A bias row broadcast down the tile's rows, at `(p, q)`. -/
theorem biasRow_apply (b : FVec Ideal S1x128 .f32) (p : Fin 5000) (q : Fin 128) :
    broadcastTo S5000x128 (shapeCast S1x128 b shapeCasts_S1x128_S1x128) broadcasts_S1x128_S5000x128 (ix2 p q)
      = b (ix2 (0 : Fin 1) q) := by
  rw [shapeCast_self, broadcastTo_1b_ab_apply]

/-- The body's stored value at `(p, q)`: the layer's entry on the tile, clamped below at zero. -/
theorem payload_apply (x0 x1 : Vec Ideal S5000x128 .f32) (x2 x4 : Vec Ideal S128x128 .f32)
    (x3 x5 : Vec Ideal S1x128 .f32) (p : Fin 5000) (q : Fin 128) :
    k0_pay1 (F := Ideal) x0 x1 x2 x4 x3 x5 (ix2 p q) = max (combineAt x0 x1 x2 x4 x3 x5 p q) 0 := by
  unfold k0_pay1
  dsimp only
  rw [maximumf_apply, addf_apply, addf_apply, addf_apply, broadcast_apply]
  rw [product_apply, biasRow_apply, shapeCast_self, product_apply, biasRow_apply]
  show max _ (Ideal.ofBits .f32 0x00000000#32) = _
  rw [Ideal.ofBits_zero_f32]
  rfl

end Cert.MeanConv.Region0

end
-- ==== Proof.Region0.lean ====
/-
  The first-round layer for one kind of node, as the tiled program leaves it in its output array.

  The rows are cut into 20 tiles of 5000. At tile `t` the program holds rows `5000·t … 5000·t + 4999` of the node
  features and of the aggregated neighbour features, and the two weight matrices and the two bias rows whole; what it
  writes back is tile `t` of the output. An entry of the layer depends on one row of the features and the same row of
  the neighbours only, so the layer computed on the tile's rows is the tile's rows of the layer computed on the whole
  arrays (`combineAt_rows`). Every row lies in exactly the tile numbered by its quotient by 5000, so the 20 tiles cover
  the output array, which therefore ends holding `combineRelu` of the six arrays the region found.
-/
import proofs.«164524_j12790412607511_1_alg».proof.Proof.LibMeanConv
import proofs.«164524_j12790412607511_1_alg».proof.Proof.Region0Payload
import proofs.«164524_j12790412607511_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MeanConv.Region0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The offsets `(0, 0)` of the body's accesses, as the constant function. -/
theorem zeroOffsets : (![0, 0] : Fin 2 → Nat) = fun _ => 0 := funext fun a => by fin_cases a <;> rfl

/-- Where each window's block sits at tile `t`: the two row-tiled inputs and the output at block row `t`, the weights
    and the bias rows at block `(0, 0)`. -/
theorem blockIndex : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- The layer's entry on a tile: when row `p` of the two row blocks is row `P` of the two arrays and the other four
    blocks are the whole arrays, the body's value at `(p, q)` is the clamped layer at `(P, q)`. -/
theorem tile_entry (X NB : Mat 100000 128) (WS WN : Mat 128 128) (BS BN : Mat 1 128)
    (x0 x1 : Vec Ideal S5000x128 .f32) (x2 x4 : Vec Ideal S128x128 .f32) (x3 x5 : Vec Ideal S1x128 .f32)
    (p : Fin 5000) (P : Fin 100000) (q : Fin 128)
    (h0 : ∀ k : Fin 128, x0 (ix2 p k) = X (ix2 P k)) (h1 : ∀ k : Fin 128, x1 (ix2 p k) = NB (ix2 P k))
    (h2 : x2 = WS) (h4 : x4 = WN) (h3 : x3 = BS) (h5 : x5 = BN) :
    k0_pay1 (F := Ideal) x0 x1 x2 x4 x3 x5 (ix2 p q) = combineRelu X NB WS WN BS BN (ix2 P q) := by
  subst h2 h4 h3 h5
  rw [payload_apply, combineRelu_ix2, combineAt_rows X NB x0 x1 x2 x4 x3 x5 p P q h0 h1]

/-- The same at indices given by their coordinates' values: the tile is number `T`, the array index `i` is the tile's
    index `j` moved down by `5000 · T` rows. -/
theorem tile_entry_at (X NB : Mat 100000 128) (WS WN : Mat 128 128) (BS BN : Mat 1 128)
    (x0 x1 : Vec Ideal S5000x128 .f32) (x2 x4 : Vec Ideal S128x128 .f32) (x3 x5 : Vec Ideal S1x128 .f32)
    (T : ℕ) (j : S5000x128.Idx) (i : S100000x128.Idx)
    (hi0 : (i 0).val = T * 5000 + (j 0).val) (hi1 : (i 1).val = (j 1).val)
    (h0 : ∀ (p : Fin 5000) (k : Fin 128) (P : Fin 100000), P.val = T * 5000 + p.val → x0 (ix2 p k) = X (ix2 P k))
    (h1 : ∀ (p : Fin 5000) (k : Fin 128) (P : Fin 100000), P.val = T * 5000 + p.val → x1 (ix2 p k) = NB (ix2 P k))
    (h2 : x2 = WS) (h4 : x4 = WN) (h3 : x3 = BS) (h5 : x5 = BN) :
    k0_pay1 (F := Ideal) x0 x1 x2 x4 x3 x5 j = combineRelu X NB WS WN BS BN i := by
  obtain ⟨p, q, rfl⟩ : ∃ (p : Fin 5000) (q : Fin 128), j = ix2 p q := ⟨j 0, j 1, eq_ix2 j⟩
  obtain ⟨P, Q, rfl⟩ : ∃ (P : Fin 100000) (Q : Fin 128), i = ix2 P Q := ⟨i 0, i 1, eq_ix2 i⟩
  have hP : P.val = T * 5000 + p.val := hi0
  have hQ : Q = q := Fin.ext hi1
  subst hQ
  exact tile_entry X NB WS WN BS BN x0 x1 x2 x4 x3 x5 p P Q (fun k => h0 p k P hP) (fun k => h1 p k P hP) h2 h4 h3 h5

/-- Row `p` of the feature block at tile `t` is row `5000·t + p` of the feature array. -/
theorem featBlock_apply (c : Dev nD) (t : Fin cfg0.N) (p : Fin 5000) (k : Fin 128) (P : Fin 100000)
    (hP : P.val = t.val * 5000 + p.val) :
    (iblk0 V c 0 t : Vec Ideal S5000x128 .f32) (ix2 p k) = (V c main_arg1 : S100000x128.Idx → Elt Ideal .f32) (ix2 P k) := by
  obtain ⟨⟨e0, e1⟩, -⟩ := blockIndex t
  unfold iblk0
  rw [View.read_apply]
  show V c main_arg1 _ = V c main_arg1 _
  refine congrArg (V c main_arg1) ?_
  funext a
  apply Fin.ext
  match a with
  | ⟨0, _⟩ => show win0_0.index t (0 : Fin 2) * 5000 + 1 * p.val = P.val; rw [e0, hP]; omega
  | ⟨1, _⟩ => show win0_0.index t (1 : Fin 2) * 128 + 1 * k.val = k.val; rw [e1]; omega

/-- Row `p` of the neighbour block at tile `t` is row `5000·t + p` of the aggregated neighbour array. -/
theorem nbBlock_apply (c : Dev nD) (t : Fin cfg0.N) (p : Fin 5000) (k : Fin 128) (P : Fin 100000)
    (hP : P.val = t.val * 5000 + p.val) :
    (iblk0 V c 1 t : Vec Ideal S5000x128 .f32) (ix2 p k) = (V c main_v17 : S100000x128.Idx → Elt Ideal .f32) (ix2 P k) := by
  obtain ⟨-, ⟨e0, e1⟩, -⟩ := blockIndex t
  unfold iblk0
  rw [View.read_apply]
  show V c main_v17 _ = V c main_v17 _
  refine congrArg (V c main_v17) ?_
  funext a
  apply Fin.ext
  match a with
  | ⟨0, _⟩ => show win0_1.index t (0 : Fin 2) * 5000 + 1 * p.val = P.val; rw [e0, hP]; omega
  | ⟨1, _⟩ => show win0_1.index t (1 : Fin 2) * 128 + 1 * k.val = k.val; rw [e1]; omega

/-- The first weight matrix's block at every tile is the whole matrix. -/
theorem selfWeightBlock (c : Dev nD) (t : Fin cfg0.N) :
    (iblk0 V c 2 t : Vec Ideal S128x128 .f32) = (V c main_arg2 : S128x128.Idx → Elt Ideal .f32) := by
  obtain ⟨-, -, ⟨e0, e1⟩, -⟩ := blockIndex t
  funext y
  unfold iblk0
  rw [View.read_apply]
  show V c main_arg2 _ = V c main_arg2 _
  refine congrArg (V c main_arg2) ?_
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The first bias row's block at every tile is the whole row. -/
theorem selfBiasBlock (c : Dev nD) (t : Fin cfg0.N) :
    (iblk0 V c 3 t : Vec Ideal S1x128 .f32) = (V c main_v18 : S1x128.Idx → Elt Ideal .f32) := by
  obtain ⟨-, -, -, ⟨e0, e1⟩, -⟩ := blockIndex t
  funext y
  unfold iblk0
  rw [View.read_apply]
  show V c main_v18 _ = V c main_v18 _
  refine congrArg (V c main_v18) ?_
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The second weight matrix's block at every tile is the whole matrix. -/
theorem nbWeightBlock (c : Dev nD) (t : Fin cfg0.N) :
    (iblk0 V c 4 t : Vec Ideal S128x128 .f32) = (V c main_arg4 : S128x128.Idx → Elt Ideal .f32) := by
  obtain ⟨-, -, -, -, ⟨e0, e1⟩, -⟩ := blockIndex t
  funext y
  unfold iblk0
  rw [View.read_apply]
  show V c main_arg4 _ = V c main_arg4 _
  refine congrArg (V c main_arg4) ?_
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The second bias row's block at every tile is the whole row. -/
theorem nbBiasBlock (c : Dev nD) (t : Fin cfg0.N) :
    (iblk0 V c 5 t : Vec Ideal S1x128 .f32) = (V c main_v19 : S1x128.Idx → Elt Ideal .f32) := by
  obtain ⟨-, -, -, -, -, ⟨e0, e1⟩, -⟩ := blockIndex t
  funext y
  unfold iblk0
  rw [View.read_apply]
  show V c main_v19 _ = V c main_v19 _
  refine congrArg (V c main_v19) ?_
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- What tile `t` writes back is tile `t` of the layer of the six arrays the region found. -/
theorem flushed_eq (c : Dev nD) (t : Fin cfg0.N) :
    (dat0 (F := Ideal) V c).flushed 6 t = ((cfg0.win 6).blk t).view.read (Elt Ideal)
      (combineRelu (V c main_arg1) (V c main_v17) (V c main_arg2) (V c main_arg4) (V c main_v18) (V c main_v19)) := by
  show (cfg0.win 6).cut (grid0.coords t) ((dat0 (F := Ideal) V c).after 6 t) = _
  rw [after0_6]
  unfold out0_6
  rw [View.canon_unit_zero zeroOffsets]
  simp only [View.ld_unit_zero (S := S5000x128) zeroOffsets, View.ld_unit_zero (S := S128x128) zeroOffsets,
    View.ld_unit_zero (S := S1x128) zeroOffsets]
  obtain ⟨-, -, -, -, -, -, ⟨e0, e1⟩⟩ := blockIndex t
  funext j
  show k0_pay1 (F := Ideal) (iblk0 V c 0 t) (iblk0 V c 1 t) (iblk0 V c 2 t) (iblk0 V c 4 t) (iblk0 V c 3 t) (iblk0 V c 5 t) j
    = combineRelu (V c main_arg1) (V c main_v17) (V c main_arg2) (V c main_arg4) (V c main_v18) (V c main_v19)
        (((cfg0.win 6).blk t).view.emb j)
  refine tile_entry_at (V c main_arg1) (V c main_v17) (V c main_arg2) (V c main_arg4) (V c main_v18) (V c main_v19)
    (iblk0 V c 0 t) (iblk0 V c 1 t) (iblk0 V c 2 t) (iblk0 V c 4 t) (iblk0 V c 3 t) (iblk0 V c 5 t)
    t.val j (((cfg0.win 6).blk t).view.emb j) ?_ ?_
    (fun p k P hP => featBlock_apply V c t p k P hP) (fun p k P hP => nbBlock_apply V c t p k P hP)
    (selfWeightBlock V c t) (nbWeightBlock V c t) (selfBiasBlock V c t) (nbBiasBlock V c t)
  · show win0_6.index t (0 : Fin 2) * 5000 + 1 * (j 0).val = t.val * 5000 + (j 0).val
    rw [e0]; omega
  · show win0_6.index t (1 : Fin 2) * 128 + 1 * (j 1).val = (j 1).val
    rw [e1]; omega

/-- An index of the output array is in tile `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v20).slice (win0_6.rect t)).set ↔ _
  rw [View.set_slice_whole, Rect.mem_set_unit]
  exact Iff.rfl

/-- Every index of the output array lies in the block of the tile numbered by its row's quotient by 5000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨-, -, -, -, -, -, ⟨e0, e1⟩⟩ := blockIndex t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 128 ≤ (i 1).val ∧ (i 1).val < win0_6.index t (1 : Fin 2) * 128 + 128
    rw [e1]; omega

/-- The output array after the region: the clamped layer of the six arrays the region found. -/
theorem value (V : (c : Dev Cert.KernelIdeal.nD) → (b : Ref Cert.KernelIdeal.sig .tc) →
      Buf (Elt Ideal) ((c : Thread Cert.KernelIdeal.nD Cert.KernelIdeal.τ).loc b)) (c : Dev Cert.KernelIdeal.nD) :
    (Cert.KernelIdeal.Gen.dat0 (F := Ideal) V c).arrAt 6 Cert.KernelIdeal.cfg0.N
      = Cert.MeanConv.combineRelu (V c main_arg1) (V c main_v17) (V c main_arg2) (V c main_arg4) (V c main_v18)
          (V c main_v19) :=
  (dat0 (F := Ideal) V c).arrAt_eq_of_cover 6
    (combineRelu (V c main_arg1) (V c main_v17) (V c main_arg2) (V c main_arg4) (V c main_v18) (V c main_v19))
    (fun t _ => flushed_eq V c t) cover

end Cert.MeanConv.Region0

end
-- ==== Proof.Region1.lean ====
/-
  The first-round layer for the other kind of node, as the second tiled program leaves it in its output array: the
  same body on the other six arrays (own features, aggregated neighbours of the other kind, its two weight matrices and
  its two bias rows).

  The rows are cut into 20 tiles of 5000. At tile `t` the program holds rows `5000·t … 5000·t + 4999` of the node
  features and of the aggregated neighbour features, and the two weight matrices and the two bias rows whole; what it
  writes back is tile `t` of the output. An entry of the layer depends on one row of the features and the same row of
  the neighbours only, so the layer computed on the tile's rows is the tile's rows of the layer computed on the whole
  arrays (`combineAt_rows`). Every row lies in exactly the tile numbered by its quotient by 5000, so the 20 tiles cover
  the output array, which therefore ends holding `combineRelu` of the six arrays the region found.
-/
import proofs.«164524_j12790412607511_1_alg».proof.Proof.LibMeanConv
import proofs.«164524_j12790412607511_1_alg».proof.Proof.Region0Payload
import proofs.«164524_j12790412607511_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MeanConv.Region1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The offsets `(0, 0)` of the body's accesses, as the constant function. -/
theorem zeroOffsets : (![0, 0] : Fin 2 → Nat) = fun _ => 0 := funext fun a => by fin_cases a <;> rfl

/-- Where each window's block sits at tile `t`: the two row-tiled inputs and the output at block row `t`, the weights
    and the bias rows at block `(0, 0)`. -/
theorem blockIndex : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- The body's stored value at `(p, q)`: the layer's entry on the tile, clamped below at zero (the same chain of
    operations as the first program's body). -/
theorem payload_apply (x0 x1 : Vec Ideal S5000x128 .f32) (x2 x4 : Vec Ideal S128x128 .f32)
    (x3 x5 : Vec Ideal S1x128 .f32) (p : Fin 5000) (q : Fin 128) :
    k1_pay1 (F := Ideal) x0 x1 x2 x4 x3 x5 (ix2 p q) = max (combineAt x0 x1 x2 x4 x3 x5 p q) 0 := by
  unfold k1_pay1
  dsimp only
  rw [maximumf_apply, addf_apply, addf_apply, addf_apply, broadcast_apply]
  rw [Region0.product_apply, Region0.biasRow_apply, shapeCast_self, Region0.product_apply, Region0.biasRow_apply]
  show max _ (Ideal.ofBits .f32 0x00000000#32) = _
  rw [Ideal.ofBits_zero_f32]
  rfl

/-- The layer's entry on a tile: when row `p` of the two row blocks is row `P` of the two arrays and the other four
    blocks are the whole arrays, the body's value at `(p, q)` is the clamped layer at `(P, q)`. -/
theorem tile_entry (X NB : Mat 100000 128) (WS WN : Mat 128 128) (BS BN : Mat 1 128)
    (x0 x1 : Vec Ideal S5000x128 .f32) (x2 x4 : Vec Ideal S128x128 .f32) (x3 x5 : Vec Ideal S1x128 .f32)
    (p : Fin 5000) (P : Fin 100000) (q : Fin 128)
    (h0 : ∀ k : Fin 128, x0 (ix2 p k) = X (ix2 P k)) (h1 : ∀ k : Fin 128, x1 (ix2 p k) = NB (ix2 P k))
    (h2 : x2 = WS) (h4 : x4 = WN) (h3 : x3 = BS) (h5 : x5 = BN) :
    k1_pay1 (F := Ideal) x0 x1 x2 x4 x3 x5 (ix2 p q) = combineRelu X NB WS WN BS BN (ix2 P q) := by
  subst h2 h4 h3 h5
  rw [payload_apply, combineRelu_ix2, combineAt_rows X NB x0 x1 x2 x4 x3 x5 p P q h0 h1]

/-- The same at indices given by their coordinates' values: the tile is number `T`, the array index `i` is the tile's
    index `j` moved down by `5000 · T` rows. -/
theorem tile_entry_at (X NB : Mat 100000 128) (WS WN : Mat 128 128) (BS BN : Mat 1 128)
    (x0 x1 : Vec Ideal S5000x128 .f32) (x2 x4 : Vec Ideal S128x128 .f32) (x3 x5 : Vec Ideal S1x128 .f32)
    (T : ℕ) (j : S5000x128.Idx) (i : S100000x128.Idx)
    (hi0 : (i 0).val = T * 5000 + (j 0).val) (hi1 : (i 1).val = (j 1).val)
    (h0 : ∀ (p : Fin 5000) (k : Fin 128) (P : Fin 100000), P.val = T * 5000 + p.val → x0 (ix2 p k) = X (ix2 P k))
    (h1 : ∀ (p : Fin 5000) (k : Fin 128) (P : Fin 100000), P.val = T * 5000 + p.val → x1 (ix2 p k) = NB (ix2 P k))
    (h2 : x2 = WS) (h4 : x4 = WN) (h3 : x3 = BS) (h5 : x5 = BN) :
    k1_pay1 (F := Ideal) x0 x1 x2 x4 x3 x5 j = combineRelu X NB WS WN BS BN i := by
  obtain ⟨p, q, rfl⟩ : ∃ (p : Fin 5000) (q : Fin 128), j = ix2 p q := ⟨j 0, j 1, eq_ix2 j⟩
  obtain ⟨P, Q, rfl⟩ : ∃ (P : Fin 100000) (Q : Fin 128), i = ix2 P Q := ⟨i 0, i 1, eq_ix2 i⟩
  have hP : P.val = T * 5000 + p.val := hi0
  have hQ : Q = q := Fin.ext hi1
  subst hQ
  exact tile_entry X NB WS WN BS BN x0 x1 x2 x4 x3 x5 p P Q (fun k => h0 p k P hP) (fun k => h1 p k P hP) h2 h4 h3 h5

/-- Row `p` of the feature block at tile `t` is row `5000·t + p` of the feature array. -/
theorem featBlock_apply (c : Dev nD) (t : Fin cfg1.N) (p : Fin 5000) (k : Fin 128) (P : Fin 100000)
    (hP : P.val = t.val * 5000 + p.val) :
    (iblk1 V c 0 t : Vec Ideal S5000x128 .f32) (ix2 p k) = (V c main_arg0 : S100000x128.Idx → Elt Ideal .f32) (ix2 P k) := by
  obtain ⟨⟨e0, e1⟩, -⟩ := blockIndex t
  unfold iblk1
  rw [View.read_apply]
  show V c main_arg0 _ = V c main_arg0 _
  refine congrArg (V c main_arg0) ?_
  funext a
  apply Fin.ext
  match a with
  | ⟨0, _⟩ => show win1_0.index t (0 : Fin 2) * 5000 + 1 * p.val = P.val; rw [e0, hP]; omega
  | ⟨1, _⟩ => show win1_0.index t (1 : Fin 2) * 128 + 1 * k.val = k.val; rw [e1]; omega

/-- Row `p` of the neighbour block at tile `t` is row `5000·t + p` of the aggregated neighbour array. -/
theorem nbBlock_apply (c : Dev nD) (t : Fin cfg1.N) (p : Fin 5000) (k : Fin 128) (P : Fin 100000)
    (hP : P.val = t.val * 5000 + p.val) :
    (iblk1 V c 1 t : Vec Ideal S5000x128 .f32) (ix2 p k) = (V c main_v38 : S100000x128.Idx → Elt Ideal .f32) (ix2 P k) := by
  obtain ⟨-, ⟨e0, e1⟩, -⟩ := blockIndex t
  unfold iblk1
  rw [View.read_apply]
  show V c main_v38 _ = V c main_v38 _
  refine congrArg (V c main_v38) ?_
  funext a
  apply Fin.ext
  match a with
  | ⟨0, _⟩ => show win1_1.index t (0 : Fin 2) * 5000 + 1 * p.val = P.val; rw [e0, hP]; omega
  | ⟨1, _⟩ => show win1_1.index t (1 : Fin 2) * 128 + 1 * k.val = k.val; rw [e1]; omega

/-- The first weight matrix's block at every tile is the whole matrix. -/
theorem selfWeightBlock (c : Dev nD) (t : Fin cfg1.N) :
    (iblk1 V c 2 t : Vec Ideal S128x128 .f32) = (V c main_arg6 : S128x128.Idx → Elt Ideal .f32) := by
  obtain ⟨-, -, ⟨e0, e1⟩, -⟩ := blockIndex t
  funext y
  unfold iblk1
  rw [View.read_apply]
  show V c main_arg6 _ = V c main_arg6 _
  refine congrArg (V c main_arg6) ?_
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The first bias row's block at every tile is the whole row. -/
theorem selfBiasBlock (c : Dev nD) (t : Fin cfg1.N) :
    (iblk1 V c 3 t : Vec Ideal S1x128 .f32) = (V c main_v39 : S1x128.Idx → Elt Ideal .f32) := by
  obtain ⟨-, -, -, ⟨e0, e1⟩, -⟩ := blockIndex t
  funext y
  unfold iblk1
  rw [View.read_apply]
  show V c main_v39 _ = V c main_v39 _
  refine congrArg (V c main_v39) ?_
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The second weight matrix's block at every tile is the whole matrix. -/
theorem nbWeightBlock (c : Dev nD) (t : Fin cfg1.N) :
    (iblk1 V c 4 t : Vec Ideal S128x128 .f32) = (V c main_arg8 : S128x128.Idx → Elt Ideal .f32) := by
  obtain ⟨-, -, -, -, ⟨e0, e1⟩, -⟩ := blockIndex t
  funext y
  unfold iblk1
  rw [View.read_apply]
  show V c main_arg8 _ = V c main_arg8 _
  refine congrArg (V c main_arg8) ?_
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The second bias row's block at every tile is the whole row. -/
theorem nbBiasBlock (c : Dev nD) (t : Fin cfg1.N) :
    (iblk1 V c 5 t : Vec Ideal S1x128 .f32) = (V c main_v40 : S1x128.Idx → Elt Ideal .f32) := by
  obtain ⟨-, -, -, -, -, ⟨e0, e1⟩, -⟩ := blockIndex t
  funext y
  unfold iblk1
  rw [View.read_apply]
  show V c main_v40 _ = V c main_v40 _
  refine congrArg (V c main_v40) ?_
  funext a
  apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- What tile `t` writes back is tile `t` of the layer of the six arrays the region found. -/
theorem flushed_eq (c : Dev nD) (t : Fin cfg1.N) :
    (dat1 (F := Ideal) V c).flushed 6 t = ((cfg1.win 6).blk t).view.read (Elt Ideal)
      (combineRelu (V c main_arg0) (V c main_v38) (V c main_arg6) (V c main_arg8) (V c main_v39) (V c main_v40)) := by
  show (cfg1.win 6).cut (grid1.coords t) ((dat1 (F := Ideal) V c).after 6 t) = _
  rw [after1_6]
  unfold out1_6
  rw [View.canon_unit_zero zeroOffsets]
  simp only [View.ld_unit_zero (S := S5000x128) zeroOffsets, View.ld_unit_zero (S := S128x128) zeroOffsets,
    View.ld_unit_zero (S := S1x128) zeroOffsets]
  obtain ⟨-, -, -, -, -, -, ⟨e0, e1⟩⟩ := blockIndex t
  funext j
  show k1_pay1 (F := Ideal) (iblk1 V c 0 t) (iblk1 V c 1 t) (iblk1 V c 2 t) (iblk1 V c 4 t) (iblk1 V c 3 t) (iblk1 V c 5 t) j
    = combineRelu (V c main_arg0) (V c main_v38) (V c main_arg6) (V c main_arg8) (V c main_v39) (V c main_v40)
        (((cfg1.win 6).blk t).view.emb j)
  refine tile_entry_at (V c main_arg0) (V c main_v38) (V c main_arg6) (V c main_arg8) (V c main_v39) (V c main_v40)
    (iblk1 V c 0 t) (iblk1 V c 1 t) (iblk1 V c 2 t) (iblk1 V c 4 t) (iblk1 V c 3 t) (iblk1 V c 5 t)
    t.val j (((cfg1.win 6).blk t).view.emb j) ?_ ?_
    (fun p k P hP => featBlock_apply V c t p k P hP) (fun p k P hP => nbBlock_apply V c t p k P hP)
    (selfWeightBlock V c t) (nbWeightBlock V c t) (selfBiasBlock V c t) (nbBiasBlock V c t)
  · show win1_6.index t (0 : Fin 2) * 5000 + 1 * (j 0).val = t.val * 5000 + (j 0).val
    rw [e0]; omega
  · show win1_6.index t (1 : Fin 2) * 128 + 1 * (j 1).val = (j 1).val
    rw [e1]; omega

/-- An index of the output array is in tile `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v41).slice (win1_6.rect t)).set ↔ _
  rw [View.set_slice_whole, Rect.mem_set_unit]
  exact Iff.rfl

/-- Every index of the output array lies in the block of the tile numbered by its row's quotient by 5000. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have ht : t.val = (i 0).val / 5000 := rfl
  obtain ⟨-, -, -, -, -, -, ⟨e0, e1⟩⟩ := blockIndex t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 128 ≤ (i 1).val ∧ (i 1).val < win1_6.index t (1 : Fin 2) * 128 + 128
    rw [e1]; omega

/-- The output array after the region: the clamped layer of the six arrays the region found. -/
theorem value (V : (c : Dev Cert.KernelIdeal.nD) → (b : Ref Cert.KernelIdeal.sig .tc) →
      Buf (Elt Ideal) ((c : Thread Cert.KernelIdeal.nD Cert.KernelIdeal.τ).loc b)) (c : Dev Cert.KernelIdeal.nD) :
    (Cert.KernelIdeal.Gen.dat1 (F := Ideal) V c).arrAt 6 Cert.KernelIdeal.cfg1.N
      = Cert.MeanConv.combineRelu (V c main_arg0) (V c main_v38) (V c main_arg6) (V c main_arg8) (V c main_v39)
          (V c main_v40) :=
  (dat1 (F := Ideal) V c).arrAt_eq_of_cover 6
    (combineRelu (V c main_arg0) (V c main_v38) (V c main_arg6) (V c main_arg8) (V c main_v39) (V c main_v40))
    (fun t _ => flushed_eq V c t) cover

end Cert.MeanConv.Region1

end
-- ==== Proof.Region2Payload.lean ====
/-
  The second-round layer computed on one block of rows.

  The body of a second-round region holds a block of `5000` rows of the node features `x` and of the aggregated
  neighbour features `nb`, the two weight rows `ws wn : [1, 128]` and the two biases as `[1, 1]` arrays. It narrows the
  four matrices (the identity on extended reals), transposes each weight row into a column `[128, 1]`, multiplies
  `[5000, 128] · [128, 1]` into a zero accumulator, spreads each bias down the `5000` rows, and adds the four terms from
  the left. Entry `(p, q)` of the product with the transposed row is `∑ k, x (p, k) · ws (q, k)`, so the block the body
  stores is, entry by entry, the layer `combineAt` of the block's rows.
-/
import proofs.«164524_j12790412607511_1_alg».proof.Proof.LibMeanConv
import proofs.«164524_j12790412607511_1_alg».proof.Proof.LibPlainMatmul
import proofs.«164524_j12790412607511_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MeanConv.Region2

open Idealize.ShloMosaic Idealize.ShloMosaic.ValueIdx
open Cert.KernelIdeal

/-- The block the body stores, at row `p` and column `q`, is the layer's entry `(p, q)` on the loaded blocks. -/
theorem payload_apply (x nb : Vec Ideal S5000x128 .f32) (ws wn : Vec Ideal S1x128 .f32) (bs bn : Vec Ideal S1x1 .f32)
    (p : Fin 5000) (q : Fin 1) :
    Gen.k2_pay1 (F := Ideal) x nb ws wn bs bn (ix2 p q) = combineAt x nb ws wn bs bn p q := by
  unfold Gen.k2_pay1
  simp only [shapeCast_self]
  rw [addf_apply, addf_apply, addf_apply, broadcastTo_1b_ab_apply, broadcastTo_1b_ab_apply]
  simp only [matmul]
  have hD : dot_S5000x128_S128x1_S5000x1_1_0_0_1_n_n = DotDims.plain 5000 128 1 := rfl
  rw [Cert.LibPlainMatmul.matmul_plain_zero_apply dot_S5000x128_S128x1_S5000x1_1_0_0_1_n_n hD,
    Cert.LibPlainMatmul.matmul_plain_zero_apply dot_S5000x128_S128x1_S5000x1_1_0_0_1_n_n hD]
  unfold combineAt
  refine congrArg₂ (· + ·) (congrArg₂ (· + ·) (congrArg₂ (· + ·) (Finset.sum_congr rfl fun k _ => ?_) rfl)
    (Finset.sum_congr rfl fun k _ => ?_)) rfl
  · exact congrArg (x (ix2 p k) * ·) (transpose_ix2_apply (a := 1) (b := 128) _ _ k q)
  · exact congrArg (nb (ix2 p k) * ·) (transpose_ix2_apply (a := 1) (b := 128) _ _ k q)

end Cert.MeanConv.Region2

end
-- ==== Proof.Region2.lean ====
/-
  The second-round layer over the whole array of tweet nodes, from the blocks the region writes.

  The region walks the `100000` rows in `20` blocks of `5000`. At block `t` the body sees rows `5000 t … 5000 t + 4999`
  of the first-round features and of the aggregated neighbour features, and the two weight rows and the two biases
  whole; it stores the block `[5000, 1]` of scores whole. An entry of the layer depends on one row of the features and
  the same row of the neighbours only, so row `p` of the stored block is row `5000 t + p` of the layer on the whole
  arrays (`point_eq`, `block_eq`). Row `r` lies in the block of point `r / 5000`, so the blocks fill the array
  (`cover`) and the array ends holding the layer (`value`).
-/
import proofs.«164524_j12790412607511_1_alg».proof.Proof.LibMeanConv
import proofs.«164524_j12790412607511_1_alg».proof.Proof.Region2Payload
import proofs.«164524_j12790412607511_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MeanConv.Region2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- One entry of a stored block: when row `p` of the two loaded row blocks is row `P` of the two arrays and the four
    small windows hold their arrays whole, entry `(p, q)` of what the body stores is entry `(P, q)` of the layer. -/
theorem point_eq (X NB : Mat 100000 128) (WS WN : Mat 1 128) (BS BN : Mat 1 1)
    (x nb : Vec Ideal S5000x128 .f32) (ws wn : Vec Ideal S1x128 .f32) (bs bn : Vec Ideal S1x1 .f32)
    (p : Fin 5000) (P : Fin 100000) (q : Fin 1)
    (hx : ∀ k : Fin 128, x (ix2 p k) = X (ix2 P k)) (hnb : ∀ k : Fin 128, nb (ix2 p k) = NB (ix2 P k))
    (hws : ws = WS) (hwn : wn = WN) (hbs : bs = BS) (hbn : bn = BN) :
    k2_pay1 (F := Ideal) x nb ws wn bs bn (ix2 p q) = combine X NB WS WN BS BN (ix2 P q) := by
  subst hws hwn hbs hbn
  rw [payload_apply, combine_ix2]
  exact combineAt_rows X NB x nb ws wn bs bn p P q hx hnb

/-- WHAT POINT `t` WRITES BACK is block `t` (rows `5000 t … 5000 t + 4999`) of the layer on the arrays the region finds. -/
theorem block_eq (c : Dev nD) (t : Fin cfg2.N) :
    (dat2 (F := Ideal) V c).flushed 6 t = ((cfg2.win 6).blk t).view.read (Elt Ideal)
      (combine (V c main_v20) (V c main_v59) (V c main_arg10) (V c main_arg12) (V c main_v60) (V c main_v61)) := by
  show (cfg2.win 6).cut (grid2.coords t) ((dat2 (F := Ideal) V c).after 6 t) = _
  rw [after2_6]
  unfold out2_6
  rw [View.canon_unit_zero zero_offsets]
  simp only [View.ld_unit_zero (S := S5000x128) zero_offsets, View.ld_unit_zero (S := S1x128) zero_offsets,
    View.ld_unit_zero (S := S1x1) zero_offsets]
  obtain ⟨e0, e1, e2, e3, e4, e5, e6, e7, e8, e9, e10, e11, e12, e13⟩ := index_maps t
  have ht : t.val < 20 := t.isLt
  funext j
  obtain ⟨p, q, rfl⟩ : ∃ (p : Fin 5000) (q : Fin 1), j = ix2 p q := ⟨j 0, j 1, eq_ix2 j⟩
  have hp : p.val < 5000 := p.isLt
  have hw2 : (iblk2 V c 2 t : Vec Ideal S1x128 .f32) = V c main_arg10 := by
    funext y
    show V c main_arg10 (((cfg2.win 2).blk t).view.emb y) = V c main_arg10 y
    refine congrArg (V c main_arg10) (funext fun a => Fin.ext ?_)
    match a with
    | ⟨0, _⟩ => show win2_2.index t (0 : Fin 2) * 1 + 1 * (y 0).val = (y 0).val; rw [e4]; omega
    | ⟨1, _⟩ => show win2_2.index t (1 : Fin 2) * 128 + 1 * (y 1).val = (y 1).val; rw [e5]; omega
  have hw3 : (iblk2 V c 3 t : Vec Ideal S1x1 .f32) = V c main_v60 := by
    funext y
    show V c main_v60 (((cfg2.win 3).blk t).view.emb y) = V c main_v60 y
    refine congrArg (V c main_v60) (funext fun a => Fin.ext ?_)
    match a with
    | ⟨0, _⟩ => show win2_3.index t (0 : Fin 2) * 1 + 1 * (y 0).val = (y 0).val; rw [e6]; omega
    | ⟨1, _⟩ => show win2_3.index t (1 : Fin 2) * 1 + 1 * (y 1).val = (y 1).val; rw [e7]; omega
  have hw4 : (iblk2 V c 4 t : Vec Ideal S1x128 .f32) = V c main_arg12 := by
    funext y
    show V c main_arg12 (((cfg2.win 4).blk t).view.emb y) = V c main_arg12 y
    refine congrArg (V c main_arg12) (funext fun a => Fin.ext ?_)
    match a with
    | ⟨0, _⟩ => show win2_4.index t (0 : Fin 2) * 1 + 1 * (y 0).val = (y 0).val; rw [e8]; omega
    | ⟨1, _⟩ => show win2_4.index t (1 : Fin 2) * 128 + 1 * (y 1).val = (y 1).val; rw [e9]; omega
  have hw5 : (iblk2 V c 5 t : Vec Ideal S1x1 .f32) = V c main_v61 := by
    funext y
    show V c main_v61 (((cfg2.win 5).blk t).view.emb y) = V c main_v61 y
    refine congrArg (V c main_v61) (funext fun a => Fin.ext ?_)
    match a with
    | ⟨0, _⟩ => show win2_5.index t (0 : Fin 2) * 1 + 1 * (y 0).val = (y 0).val; rw [e10]; omega
    | ⟨1, _⟩ => show win2_5.index t (1 : Fin 2) * 1 + 1 * (y 1).val = (y 1).val; rw [e11]; omega
  have hr0 : ∀ k : Fin 128, (iblk2 V c 0 t : Vec Ideal S5000x128 .f32) (ix2 p k)
      = (V c main_v20 : Mat 100000 128) (ix2 (⟨t.val * 5000 + p.val, by omega⟩ : Fin 100000) k) := by
    intro k
    show V c main_v20 (((cfg2.win 0).blk t).view.emb (ix2 p k)) = V c main_v20 _
    refine congrArg (V c main_v20) (funext fun a => Fin.ext ?_)
    match a with
    | ⟨0, _⟩ => show win2_0.index t (0 : Fin 2) * 5000 + 1 * p.val = t.val * 5000 + p.val; rw [e0]; omega
    | ⟨1, _⟩ => show win2_0.index t (1 : Fin 2) * 128 + 1 * k.val = k.val; rw [e1]; omega
  have hr1 : ∀ k : Fin 128, (iblk2 V c 1 t : Vec Ideal S5000x128 .f32) (ix2 p k)
      = (V c main_v59 : Mat 100000 128) (ix2 (⟨t.val * 5000 + p.val, by omega⟩ : Fin 100000) k) := by
    intro k
    show V c main_v59 (((cfg2.win 1).blk t).view.emb (ix2 p k)) = V c main_v59 _
    refine congrArg (V c main_v59) (funext fun a => Fin.ext ?_)
    match a with
    | ⟨0, _⟩ => show win2_1.index t (0 : Fin 2) * 5000 + 1 * p.val = t.val * 5000 + p.val; rw [e2]; omega
    | ⟨1, _⟩ => show win2_1.index t (1 : Fin 2) * 128 + 1 * k.val = k.val; rw [e3]; omega
  have hout : ((cfg2.win 6).blk t).view.emb (ix2 p q) = ix2 (⟨t.val * 5000 + p.val, by omega⟩ : Fin 100000) q := by
    funext a
    apply Fin.ext
    match a with
    | ⟨0, _⟩ => show win2_6.index t (0 : Fin 2) * 5000 + 1 * p.val = t.val * 5000 + p.val; rw [e12]; omega
    | ⟨1, _⟩ => show win2_6.index t (1 : Fin 2) * 1 + 1 * q.val = q.val; rw [e13]; omega
  show k2_pay1 (iblk2 V c 0 t) (iblk2 V c 1 t) (iblk2 V c 2 t) (iblk2 V c 4 t) (iblk2 V c 3 t) (iblk2 V c 5 t) (ix2 p q)
    = combine (V c main_v20) (V c main_v59) (V c main_arg10) (V c main_arg12) (V c main_v60) (V c main_v61)
        (((cfg2.win 6).blk t).view.emb (ix2 p q))
  rw [hout]
  exact point_eq (V c main_v20) (V c main_v59) (V c main_arg10) (V c main_arg12) (V c main_v60) (V c main_v61)
    (iblk2 V c 0 t) (iblk2 V c 1 t) (iblk2 V c 2 t) (iblk2 V c 4 t) (iblk2 V c 3 t) (iblk2 V c 5 t) p _ q hr0 hr1 hw2 hw4 hw3 hw5

/-- An index of the output array lies in point `t`'s block exactly when each coordinate lies in the block's range. -/
theorem mem_block (t : Fin cfg2.N) (i : S100000x1.Idx) :
    i ∈ ((cfg2.win 6).blk t).view.set ↔ ∀ a : Fin 2, win2_6.index t a * S5000x1.size a ≤ (i a).val
      ∧ (i a).val < win2_6.index t a * S5000x1.size a + S5000x1.size a := by
  show i ∈ ((View.whole main_v62).slice (win2_6.rect t)).set ↔ _
  rw [View.set_slice_whole, Rect.mem_set_unit]
  exact Iff.rfl

/-- The twenty blocks of `5000` rows fill the `100000` rows: row `r` lies in the block of point `r / 5000`. -/
theorem cover (i : S100000x1.Idx) :
    ∃ t : Fin cfg2.N, (cfg2.win 6).flush t = true ∧ i ∈ ((cfg2.win 6).blk t).view.set := by
  have hi0 : (i 0).val < 100000 := (i 0).isLt
  have hi1 : (i 1).val < 1 := (i 1).isLt
  obtain ⟨t, ht⟩ : ∃ t : Fin cfg2.N, t.val = (i 0).val / 5000 :=
    ⟨⟨(i 0).val / 5000, show (i 0).val / 5000 < 20 by omega⟩, rfl⟩
  obtain ⟨e0, e1, e2, e3, e4, e5, e6, e7, e8, e9, e10, e11, e12, e13⟩ := index_maps t
  refine ⟨t, flush2_6 t, ?_⟩
  rw [mem_block]
  intro a
  match a with
  | ⟨0, _⟩ =>
    show win2_6.index t (0 : Fin 2) * 5000 ≤ (i 0).val ∧ (i 0).val < win2_6.index t (0 : Fin 2) * 5000 + 5000
    rw [e12]; omega
  | ⟨1, _⟩ =>
    show win2_6.index t (1 : Fin 2) * 1 ≤ (i 1).val ∧ (i 1).val < win2_6.index t (1 : Fin 2) * 1 + 1
    rw [e13]; omega

/-- THE OUTPUT ARRAY after the region: the second-round layer of the first-round features and the aggregated
    neighbour features the region finds, with the weights and biases it finds. -/
theorem value (c : Dev nD) :
    (dat2 (F := Ideal) V c).arrAt 6 cfg2.N
      = combine (V c main_v20) (V c main_v59) (V c main_arg10) (V c main_arg12) (V c main_v60) (V c main_v61) :=
  (dat2 (F := Ideal) V c).arrAt_eq_of_cover 6
    (combine (V c main_v20) (V c main_v59) (V c main_arg10) (V c main_arg12) (V c main_v60) (V c main_v61))
    (fun t _ => block_eq V c t) cover

end Cert.MeanConv.Region2

end
-- ==== Proof.Region3Payload.lean ====
/-
  The second-round layer computed on one block of rows.

  The body of a second-round region holds a block of `5000` rows of the node features `x` and of the aggregated
  neighbour features `nb`, the two weight rows `ws wn : [1, 128]` and the two biases as `[1, 1]` arrays. It narrows the
  four matrices (the identity on extended reals), transposes each weight row into a column `[128, 1]`, multiplies
  `[5000, 128] · [128, 1]` into a zero accumulator, spreads each bias down the `5000` rows, and adds the four terms from
  the left. Entry `(p, q)` of the product with the transposed row is `∑ k, x (p, k) · ws (q, k)`, so the block the body
  stores is, entry by entry, the layer `combineAt` of the block's rows.
-/
import proofs.«164524_j12790412607511_1_alg».proof.Proof.LibMeanConv
import proofs.«164524_j12790412607511_1_alg».proof.Proof.LibPlainMatmul
import proofs.«164524_j12790412607511_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MeanConv.Region3

open Idealize.ShloMosaic Idealize.ShloMosaic.ValueIdx
open Cert.KernelIdeal

/-- The block the body stores, at row `p` and column `q`, is the layer's entry `(p, q)` on the loaded blocks. -/
theorem payload_apply (x nb : Vec Ideal S5000x128 .f32) (ws wn : Vec Ideal S1x128 .f32) (bs bn : Vec Ideal S1x1 .f32)
    (p : Fin 5000) (q : Fin 1) :
    Gen.k3_pay1 (F := Ideal) x nb ws wn bs bn (ix2 p q) = combineAt x nb ws wn bs bn p q := by
  unfold Gen.k3_pay1
  simp only [shapeCast_self]
  rw [addf_apply, addf_apply, addf_apply, broadcastTo_1b_ab_apply, broadcastTo_1b_ab_apply]
  simp only [matmul]
  have hD : dot_S5000x128_S128x1_S5000x1_1_0_0_1_n_n = DotDims.plain 5000 128 1 := rfl
  rw [Cert.LibPlainMatmul.matmul_plain_zero_apply dot_S5000x128_S128x1_S5000x1_1_0_0_1_n_n hD,
    Cert.LibPlainMatmul.matmul_plain_zero_apply dot_S5000x128_S128x1_S5000x1_1_0_0_1_n_n hD]
  unfold combineAt
  refine congrArg₂ (· + ·) (congrArg₂ (· + ·) (congrArg₂ (· + ·) (Finset.sum_congr rfl fun k _ => ?_) rfl)
    (Finset.sum_congr rfl fun k _ => ?_)) rfl
  · exact congrArg (x (ix2 p k) * ·) (transpose_ix2_apply (a := 1) (b := 128) _ _ k q)
  · exact congrArg (nb (ix2 p k) * ·) (transpose_ix2_apply (a := 1) (b := 128) _ _ k q)

end Cert.MeanConv.Region3

end
-- ==== Proof.Region3.lean ====
/-
  The second-round layer over the whole array of user nodes, from the blocks the region writes.

  The region walks the `100000` rows in `20` blocks of `5000`. At block `t` the body sees rows `5000 t … 5000 t + 4999`
  of the first-round features and of the aggregated neighbour features, and the two weight rows and the two biases
  whole; it stores the block `[5000, 1]` of scores whole. An entry of the layer depends on one row of the features and
  the same row of the neighbours only, so row `p` of the stored block is row `5000 t + p` of the layer on the whole
  arrays (`point_eq`, `block_eq`). Row `r` lies in the block of point `r / 5000`, so the blocks fill the array
  (`cover`) and the array ends holding the layer (`value`).
-/
import proofs.«164524_j12790412607511_1_alg».proof.Proof.LibMeanConv
import proofs.«164524_j12790412607511_1_alg».proof.Proof.Region3Payload
import proofs.«164524_j12790412607511_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MeanConv.Region3

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

theorem index_maps : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- One entry of a stored block: when row `p` of the two loaded row blocks is row `P` of the two arrays and the four
    small windows hold their arrays whole, entry `(p, q)` of what the body stores is entry `(P, q)` of the layer. -/
theorem point_eq (X NB : Mat 100000 128) (WS WN : Mat 1 128) (BS BN : Mat 1 1)
    (x nb : Vec Ideal S5000x128 .f32) (ws wn : Vec Ideal S1x128 .f32) (bs bn : Vec Ideal S1x1 .f32)
    (p : Fin 5000) (P : Fin 100000) (q : Fin 1)
    (hx : ∀ k : Fin 128, x (ix2 p k) = X (ix2 P k)) (hnb : ∀ k : Fin 128, nb (ix2 p k) = NB (ix2 P k))
    (hws : ws = WS) (hwn : wn = WN) (hbs : bs = BS) (hbn : bn = BN) :
    k3_pay1 (F := Ideal) x nb ws wn bs bn (ix2 p q) = combine X NB WS WN BS BN (ix2 P q) := by
  subst hws hwn hbs hbn
  rw [payload_apply, combine_ix2]
  exact combineAt_rows X NB x nb ws wn bs bn p P q hx hnb

/-- WHAT POINT `t` WRITES BACK is block `t` (rows `5000 t … 5000 t + 4999`) of the layer on the arrays the region finds. -/
theorem block_eq (c : Dev nD) (t : Fin cfg3.N) :
    (dat3 (F := Ideal) V c).flushed 6 t = ((cfg3.win 6).blk t).view.read (Elt Ideal)
      (combine (V c main_v41) (V c main_v80) (V c main_arg14) (V c main_arg16) (V c main_v81) (V c main_v82)) := by
  show (cfg3.win 6).cut (grid3.coords t) ((dat3 (F := Ideal) V c).after 6 t) = _
  rw [after3_6]
  unfold out3_6
  rw [View.canon_unit_zero zero_offsets]
  simp only [View.ld_unit_zero (S := S5000x128) zero_offsets, View.ld_unit_zero (S := S1x128) zero_offsets,
    View.ld_unit_zero (S := S1x1) zero_offsets]
  obtain ⟨e0, e1, e2, e3, e4, e5, e6, e7, e8, e9, e10, e11, e12, e13⟩ := index_maps t
  have ht : t.val < 20 := t.isLt
  funext j
  obtain ⟨p, q, rfl⟩ : ∃ (p : Fin 5000) (q : Fin 1), j = ix2 p q := ⟨j 0, j 1, eq_ix2 j⟩
  have hp : p.val < 5000 := p.isLt
  have hw2 : (iblk3 V c 2 t : Vec Ideal S1x128 .f32) = V c main_arg14 := by
    funext y
    show V c main_arg14 (((cfg3.win 2).blk t).view.emb y) = V c main_arg14 y
    refine congrArg (V c main_arg14) (funext fun a => Fin.ext ?_)
    match a with
    | ⟨0, _⟩ => show win3_2.index t (0 : Fin 2) * 1 + 1 * (y 0).val = (y 0).val; rw [e4]; omega
    | ⟨1, _⟩ => show win3_2.index t (1 : Fin 2) * 128 + 1 * (y 1).val = (y 1).val; rw [e5]; omega
  have hw3 : (iblk3 V c 3 t : Vec Ideal S1x1 .f32) = V c main_v81 := by
    funext y
    show V c main_v81 (((cfg3.win 3).blk t).view.emb y) = V c main_v81 y
    refine congrArg (V c main_v81) (funext fun a => Fin.ext ?_)
    match a with
    | ⟨0, _⟩ => show win3_3.index t (0 : Fin 2) * 1 + 1 * (y 0).val = (y 0).val; rw [e6]; omega
    | ⟨1, _⟩ => show win3_3.index t (1 : Fin 2) * 1 + 1 * (y 1).val = (y 1).val; rw [e7]; omega
  have hw4 : (iblk3 V c 4 t : Vec Ideal S1x128 .f32) = V c main_arg16 := by
    funext y
    show V c main_arg16 (((cfg3.win 4).blk t).view.emb y) = V c main_arg16 y
    refine congrArg (V c main_arg16) (funext fun a => Fin.ext ?_)
    match a with
    | ⟨0, _⟩ => show win3_4.index t (0 : Fin 2) * 1 + 1 * (y 0).val = (y 0).val; rw [e8]; omega
    | ⟨1, _⟩ => show win3_4.index t (1 : Fin 2) * 128 + 1 * (y 1).val = (y 1).val; rw [e9]; omega
  have hw5 : (iblk3 V c 5 t : Vec Ideal S1x1 .f32) = V c main_v82 := by
    funext y
    show V c main_v82 (((cfg3.win 5).blk t).view.emb y) = V c main_v82 y
    refine congrArg (V c main_v82) (funext fun a => Fin.ext ?_)
    match a with
    | ⟨0, _⟩ => show win3_5.index t (0 : Fin 2) * 1 + 1 * (y 0).val = (y 0).val; rw [e10]; omega
    | ⟨1, _⟩ => show win3_5.index t (1 : Fin 2) * 1 + 1 * (y 1).val = (y 1).val; rw [e11]; omega
  have hr0 : ∀ k : Fin 128, (iblk3 V c 0 t : Vec Ideal S5000x128 .f32) (ix2 p k)
      = (V c main_v41 : Mat 100000 128) (ix2 (⟨t.val * 5000 + p.val, by omega⟩ : Fin 100000) k) := by
    intro k
    show V c main_v41 (((cfg3.win 0).blk t).view.emb (ix2 p k)) = V c main_v41 _
    refine congrArg (V c main_v41) (funext fun a => Fin.ext ?_)
    match a with
    | ⟨0, _⟩ => show win3_0.index t (0 : Fin 2) * 5000 + 1 * p.val = t.val * 5000 + p.val; rw [e0]; omega
    | ⟨1, _⟩ => show win3_0.index t (1 : Fin 2) * 128 + 1 * k.val = k.val; rw [e1]; omega
  have hr1 : ∀ k : Fin 128, (iblk3 V c 1 t : Vec Ideal S5000x128 .f32) (ix2 p k)
      = (V c main_v80 : Mat 100000 128) (ix2 (⟨t.val * 5000 + p.val, by omega⟩ : Fin 100000) k) := by
    intro k
    show V c main_v80 (((cfg3.win 1).blk t).view.emb (ix2 p k)) = V c main_v80 _
    refine congrArg (V c main_v80) (funext fun a => Fin.ext ?_)
    match a with
    | ⟨0, _⟩ => show win3_1.index t (0 : Fin 2) * 5000 + 1 * p.val = t.val * 5000 + p.val; rw [e2]; omega
    | ⟨1, _⟩ => show win3_1.index t (1 : Fin 2) * 128 + 1 * k.val = k.val; rw [e3]; omega
  have hout : ((cfg3.win 6).blk t).view.emb (ix2 p q) = ix2 (⟨t.val * 5000 + p.val, by omega⟩ : Fin 100000) q := by
    funext a
    apply Fin.ext
    match a with
    | ⟨0, _⟩ => show win3_6.index t (0 : Fin 2) * 5000 + 1 * p.val = t.val * 5000 + p.val; rw [e12]; omega
    | ⟨1, _⟩ => show win3_6.index t (1 : Fin 2) * 1 + 1 * q.val = q.val; rw [e13]; omega
  show k3_pay1 (iblk3 V c 0 t) (iblk3 V c 1 t) (iblk3 V c 2 t) (iblk3 V c 4 t) (iblk3 V c 3 t) (iblk3 V c 5 t) (ix2 p q)
    = combine (V c main_v41) (V c main_v80) (V c main_arg14) (V c main_arg16) (V c main_v81) (V c main_v82)
        (((cfg3.win 6).blk t).view.emb (ix2 p q))
  rw [hout]
  exact point_eq (V c main_v41) (V c main_v80) (V c main_arg14) (V c main_arg16) (V c main_v81) (V c main_v82)
    (iblk3 V c 0 t) (iblk3 V c 1 t) (iblk3 V c 2 t) (iblk3 V c 4 t) (iblk3 V c 3 t) (iblk3 V c 5 t) p _ q hr0 hr1 hw2 hw4 hw3 hw5

/-- An index of the output array lies in point `t`'s block exactly when each coordinate lies in the block's range. -/
theorem mem_block (t : Fin cfg3.N) (i : S100000x1.Idx) :
    i ∈ ((cfg3.win 6).blk t).view.set ↔ ∀ a : Fin 2, win3_6.index t a * S5000x1.size a ≤ (i a).val
      ∧ (i a).val < win3_6.index t a * S5000x1.size a + S5000x1.size a := by
  show i ∈ ((View.whole main_v83).slice (win3_6.rect t)).set ↔ _
  rw [View.set_slice_whole, Rect.mem_set_unit]
  exact Iff.rfl

/-- The twenty blocks of `5000` rows fill the `100000` rows: row `r` lies in the block of point `r / 5000`. -/
theorem cover (i : S100000x1.Idx) :
    ∃ t : Fin cfg3.N, (cfg3.win 6).flush t = true ∧ i ∈ ((cfg3.win 6).blk t).view.set := by
  have hi0 : (i 0).val < 100000 := (i 0).isLt
  have hi1 : (i 1).val < 1 := (i 1).isLt
  obtain ⟨t, ht⟩ : ∃ t : Fin cfg3.N, t.val = (i 0).val / 5000 :=
    ⟨⟨(i 0).val / 5000, show (i 0).val / 5000 < 20 by omega⟩, rfl⟩
  obtain ⟨e0, e1, e2, e3, e4, e5, e6, e7, e8, e9, e10, e11, e12, e13⟩ := index_maps t
  refine ⟨t, flush3_6 t, ?_⟩
  rw [mem_block]
  intro a
  match a with
  | ⟨0, _⟩ =>
    show win3_6.index t (0 : Fin 2) * 5000 ≤ (i 0).val ∧ (i 0).val < win3_6.index t (0 : Fin 2) * 5000 + 5000
    rw [e12]; omega
  | ⟨1, _⟩ =>
    show win3_6.index t (1 : Fin 2) * 1 ≤ (i 1).val ∧ (i 1).val < win3_6.index t (1 : Fin 2) * 1 + 1
    rw [e13]; omega

/-- THE OUTPUT ARRAY after the region: the second-round layer of the first-round features and the aggregated
    neighbour features the region finds, with the weights and biases it finds. -/
theorem value (c : Dev nD) :
    (dat3 (F := Ideal) V c).arrAt 6 cfg3.N
      = combine (V c main_v41) (V c main_v80) (V c main_arg14) (V c main_arg16) (V c main_v81) (V c main_v82) :=
  (dat3 (F := Ideal) V c).arrAt_eq_of_cover 6
    (combine (V c main_v41) (V c main_v80) (V c main_arg14) (V c main_arg16) (V c main_v81) (V c main_v82))
    (fun t _ => block_eq V c t) cover

end Cert.MeanConv.Region3

end
-- ==== Proof.KernelValues.lean ====
/-
  The two results of the idealized kernel as functions of its launch contents.

  The generated frame certificate names the buffer contents at the nine segment boundaries of the program, `W0` … `W8`:
  `W1` is `W0` after the first stretch of host operations, `W2` is `W1` with the first launch's output array replaced by
  what the launch's row tiles wrote back, and so on. This module computes `W8` at the two result buffers.

  Three kinds of step occur. A stretch of host operations leaves in its last buffers the mean aggregation of a feature
  array along one of the two relations (`host<J>_mean`: the same chain of operations as the reference's, so it is the
  model's `segMean` by unfolding) and two bias vectors reshaped to rows (`host<J>_row0/1`), and keeps every buffer it does
  not write (`keep<J>`). A launch replaces its output array by the layer function of its six input arrays (the four
  region modules) and keeps every other buffer. Chaining these from the launch memory gives the first-round features of
  both kinds of node after the second launch, the tweets' result after the third and the users' result after the fourth;
  the run theorem of the previous module then states them of every execution (`run_values`).
-/
import proofs.«164524_j12790412607511_1_alg».proof.Proof.Model
import proofs.«164524_j12790412607511_1_alg».proof.Proof.KernelRun
import proofs.«164524_j12790412607511_1_alg».proof.Proof.Region0
import proofs.«164524_j12790412607511_1_alg».proof.Proof.Region1
import proofs.«164524_j12790412607511_1_alg».proof.Proof.Region2
import proofs.«164524_j12790412607511_1_alg».proof.Proof.Region3
import Idealize.ShloMosaic.Lib.ValueLayout
import Idealize.ShloMosaic.Lib.StableHlo.Run

set_option maxRecDepth 16384

noncomputable section

namespace Cert.KernelIdeal.Values

open Cert.KernelIdeal Cert.KernelIdeal.Gen Cert.MeanConv
open Idealize.ShloMosaic Idealize.ShloMosaic.TcCoe Idealize.ShloMosaic.StableHlo Idealize.ShloMosaic.ValueIdx Idealize.SL.Sem

section Stretches

variable {F : FTy → Type} [FloatOps F]

/-- The references the first stretch of host operations writes. -/
def wr0 : List (Ref sig .tc) := [main_c, main_v0, main_v1, main_c_0, main_v2, main_v3, main_v4, main_v5, main_v6, main_cst, main_v7, main_v8, main_v9, main_cst_1, main_v10, main_cst_2, main_v11, main_v12, main_v13, main_cst_3, main_v14, main_v15, main_v16, main_v17, main_v18, main_v19]

theorem hostOps0_writes :
    (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (f := Proc.devRef (τ := τ) .tc) (by decide)

/-- A reference that stretch does not write keeps its contents across it. -/
theorem keep0 (V : Valuation τ sig (Elt F)) {b : Ref sig .tc} (hb : b ∉ wr0) :
    StableHlo.after hostOps0 V (Proc.devRef .tc b) = V (Proc.devRef .tc b) :=
  StableHlo.after_of_writes_sub hostOps0 V hostOps0_writes hb

/-- The references the second stretch of host operations writes. -/
def wr1 : List (Ref sig .tc) := [main_c_4, main_v21, main_v22, main_c_5, main_v23, main_v24, main_v25, main_v26, main_v27, main_cst_6, main_v28, main_v29, main_v30, main_cst_7, main_v31, main_cst_8, main_v32, main_v33, main_v34, main_cst_9, main_v35, main_v36, main_v37, main_v38, main_v39, main_v40]

theorem hostOps1_writes :
    (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (f := Proc.devRef (τ := τ) .tc) (by decide)

/-- A reference that stretch does not write keeps its contents across it. -/
theorem keep1 (V : Valuation τ sig (Elt F)) {b : Ref sig .tc} (hb : b ∉ wr1) :
    StableHlo.after hostOps1 V (Proc.devRef .tc b) = V (Proc.devRef .tc b) :=
  StableHlo.after_of_writes_sub hostOps1 V hostOps1_writes hb

/-- The references the third stretch of host operations writes. -/
def wr2 : List (Ref sig .tc) := [main_c_10, main_v42, main_v43, main_c_11, main_v44, main_v45, main_v46, main_v47, main_v48, main_cst_12, main_v49, main_v50, main_v51, main_cst_13, main_v52, main_cst_14, main_v53, main_v54, main_v55, main_cst_15, main_v56, main_v57, main_v58, main_v59, main_v60, main_v61]

theorem hostOps2_writes :
    (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (f := Proc.devRef (τ := τ) .tc) (by decide)

/-- A reference that stretch does not write keeps its contents across it. -/
theorem keep2 (V : Valuation τ sig (Elt F)) {b : Ref sig .tc} (hb : b ∉ wr2) :
    StableHlo.after hostOps2 V (Proc.devRef .tc b) = V (Proc.devRef .tc b) :=
  StableHlo.after_of_writes_sub hostOps2 V hostOps2_writes hb

/-- The references the fourth stretch of host operations writes. -/
def wr3 : List (Ref sig .tc) := [main_c_16, main_v63, main_v64, main_c_17, main_v65, main_v66, main_v67, main_v68, main_v69, main_cst_18, main_v70, main_v71, main_v72, main_cst_19, main_v73, main_cst_20, main_v74, main_v75, main_v76, main_cst_21, main_v77, main_v78, main_v79, main_v80, main_v81, main_v82]

theorem hostOps3_writes :
    (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (f := Proc.devRef (τ := τ) .tc) (by decide)

/-- A reference that stretch does not write keeps its contents across it. -/
theorem keep3 (V : Valuation τ sig (Elt F)) {b : Ref sig .tc} (hb : b ∉ wr3) :
    StableHlo.after hostOps3 V (Proc.devRef .tc b) = V (Proc.devRef .tc b) :=
  StableHlo.after_of_writes_sub hostOps3 V hostOps3_writes hb

end Stretches

/-- The first stretch leaves the mean aggregation of `main_arg0` along the edges `main_arg18 → main_arg19` in `main_v17`. -/
theorem host0_mean (V : Valuation τ sig (Elt Ideal)) :
    StableHlo.after hostOps0 V (Proc.devRef .tc main_v17)
      = segMean (V (Proc.devRef .tc main_arg0)) (V (Proc.devRef .tc main_arg18)) (V (Proc.devRef .tc main_arg19)) := by
  after_results_simp
  unfold segMean
    Cert.ReferenceIdeal.Read.val_main_v17
    Cert.ReferenceIdeal.Read.val_main_v9
    Cert.ReferenceIdeal.Read.val_main_v16
    Cert.ReferenceIdeal.Read.val_main_v15
    Cert.ReferenceIdeal.Read.val_main_v13
    Cert.ReferenceIdeal.Read.val_main_v14
    Cert.ReferenceIdeal.Read.val_main_v12
    Cert.ReferenceIdeal.Read.val_main_v11
    Cert.ReferenceIdeal.Read.val_main_v10
    Cert.ReferenceIdeal.Read.val_main_v8
    Cert.ReferenceIdeal.Read.val_main_v7
    Cert.ReferenceIdeal.Read.val_main_v6
    Cert.ReferenceIdeal.Read.val_main_v5
    Cert.ReferenceIdeal.Read.val_main_v4
    Cert.ReferenceIdeal.Read.val_main_v3
    Cert.ReferenceIdeal.Read.val_main_v2
    Cert.ReferenceIdeal.Read.val_main_v1
    Cert.ReferenceIdeal.Read.val_main_v0
    Cert.ReferenceIdeal.Read.val_main_c
    Cert.ReferenceIdeal.Read.val_main_c_0
    Cert.ReferenceIdeal.Read.val_main_cst
    Cert.ReferenceIdeal.Read.val_main_cst_1
    Cert.ReferenceIdeal.Read.val_main_cst_2
    Cert.ReferenceIdeal.Read.val_main_cst_3
  rfl

/-- … and the bias `main_arg3` as a row in `main_v18`. -/
theorem host0_row0 (V : Valuation τ sig (Elt Ideal)) :
    StableHlo.after hostOps0 V (Proc.devRef .tc main_v18) = rowOf (V (Proc.devRef .tc main_arg3)) := by
  after_results_simp
  funext i
  obtain ⟨z, q, rfl⟩ : ∃ (z : Fin 1) (q : Fin 128), i = ix2 z q := ⟨i 0, i 1, eq_ix2 i⟩
  show shapeCast S1x128 (V (Proc.devRef .tc main_arg3)) shapeCasts_S128_S1x128 (ix2 z q) = _
  rw [shapeCast_a_1a_apply]
  rfl

/-- … and the bias `main_arg5` as a row in `main_v19`. -/
theorem host0_row1 (V : Valuation τ sig (Elt Ideal)) :
    StableHlo.after hostOps0 V (Proc.devRef .tc main_v19) = rowOf (V (Proc.devRef .tc main_arg5)) := by
  after_results_simp
  funext i
  obtain ⟨z, q, rfl⟩ : ∃ (z : Fin 1) (q : Fin 128), i = ix2 z q := ⟨i 0, i 1, eq_ix2 i⟩
  show shapeCast S1x128 (V (Proc.devRef .tc main_arg5)) shapeCasts_S128_S1x128 (ix2 z q) = _
  rw [shapeCast_a_1a_apply]
  rfl

/-- The second stretch leaves the mean aggregation of `main_arg1` along the edges `main_arg20 → main_arg21` in `main_v38`. -/
theorem host1_mean (V : Valuation τ sig (Elt Ideal)) :
    StableHlo.after hostOps1 V (Proc.devRef .tc main_v38)
      = segMean (V (Proc.devRef .tc main_arg1)) (V (Proc.devRef .tc main_arg20)) (V (Proc.devRef .tc main_arg21)) := by
  after_results_simp
  unfold segMean
    Cert.ReferenceIdeal.Read.val_main_v17
    Cert.ReferenceIdeal.Read.val_main_v9
    Cert.ReferenceIdeal.Read.val_main_v16
    Cert.ReferenceIdeal.Read.val_main_v15
    Cert.ReferenceIdeal.Read.val_main_v13
    Cert.ReferenceIdeal.Read.val_main_v14
    Cert.ReferenceIdeal.Read.val_main_v12
    Cert.ReferenceIdeal.Read.val_main_v11
    Cert.ReferenceIdeal.Read.val_main_v10
    Cert.ReferenceIdeal.Read.val_main_v8
    Cert.ReferenceIdeal.Read.val_main_v7
    Cert.ReferenceIdeal.Read.val_main_v6
    Cert.ReferenceIdeal.Read.val_main_v5
    Cert.ReferenceIdeal.Read.val_main_v4
    Cert.ReferenceIdeal.Read.val_main_v3
    Cert.ReferenceIdeal.Read.val_main_v2
    Cert.ReferenceIdeal.Read.val_main_v1
    Cert.ReferenceIdeal.Read.val_main_v0
    Cert.ReferenceIdeal.Read.val_main_c
    Cert.ReferenceIdeal.Read.val_main_c_0
    Cert.ReferenceIdeal.Read.val_main_cst
    Cert.ReferenceIdeal.Read.val_main_cst_1
    Cert.ReferenceIdeal.Read.val_main_cst_2
    Cert.ReferenceIdeal.Read.val_main_cst_3
  rfl

/-- … and the bias `main_arg7` as a row in `main_v39`. -/
theorem host1_row0 (V : Valuation τ sig (Elt Ideal)) :
    StableHlo.after hostOps1 V (Proc.devRef .tc main_v39) = rowOf (V (Proc.devRef .tc main_arg7)) := by
  after_results_simp
  funext i
  obtain ⟨z, q, rfl⟩ : ∃ (z : Fin 1) (q : Fin 128), i = ix2 z q := ⟨i 0, i 1, eq_ix2 i⟩
  show shapeCast S1x128 (V (Proc.devRef .tc main_arg7)) shapeCasts_S128_S1x128 (ix2 z q) = _
  rw [shapeCast_a_1a_apply]
  rfl

/-- … and the bias `main_arg9` as a row in `main_v40`. -/
theorem host1_row1 (V : Valuation τ sig (Elt Ideal)) :
    StableHlo.after hostOps1 V (Proc.devRef .tc main_v40) = rowOf (V (Proc.devRef .tc main_arg9)) := by
  after_results_simp
  funext i
  obtain ⟨z, q, rfl⟩ : ∃ (z : Fin 1) (q : Fin 128), i = ix2 z q := ⟨i 0, i 1, eq_ix2 i⟩
  show shapeCast S1x128 (V (Proc.devRef .tc main_arg9)) shapeCasts_S128_S1x128 (ix2 z q) = _
  rw [shapeCast_a_1a_apply]
  rfl

/-- The third stretch leaves the mean aggregation of `main_v41` along the edges `main_arg18 → main_arg19` in `main_v59`. -/
theorem host2_mean (V : Valuation τ sig (Elt Ideal)) :
    StableHlo.after hostOps2 V (Proc.devRef .tc main_v59)
      = segMean (V (Proc.devRef .tc main_v41)) (V (Proc.devRef .tc main_arg18)) (V (Proc.devRef .tc main_arg19)) := by
  after_results_simp
  unfold segMean
    Cert.ReferenceIdeal.Read.val_main_v17
    Cert.ReferenceIdeal.Read.val_main_v9
    Cert.ReferenceIdeal.Read.val_main_v16
    Cert.ReferenceIdeal.Read.val_main_v15
    Cert.ReferenceIdeal.Read.val_main_v13
    Cert.ReferenceIdeal.Read.val_main_v14
    Cert.ReferenceIdeal.Read.val_main_v12
    Cert.ReferenceIdeal.Read.val_main_v11
    Cert.ReferenceIdeal.Read.val_main_v10
    Cert.ReferenceIdeal.Read.val_main_v8
    Cert.ReferenceIdeal.Read.val_main_v7
    Cert.ReferenceIdeal.Read.val_main_v6
    Cert.ReferenceIdeal.Read.val_main_v5
    Cert.ReferenceIdeal.Read.val_main_v4
    Cert.ReferenceIdeal.Read.val_main_v3
    Cert.ReferenceIdeal.Read.val_main_v2
    Cert.ReferenceIdeal.Read.val_main_v1
    Cert.ReferenceIdeal.Read.val_main_v0
    Cert.ReferenceIdeal.Read.val_main_c
    Cert.ReferenceIdeal.Read.val_main_c_0
    Cert.ReferenceIdeal.Read.val_main_cst
    Cert.ReferenceIdeal.Read.val_main_cst_1
    Cert.ReferenceIdeal.Read.val_main_cst_2
    Cert.ReferenceIdeal.Read.val_main_cst_3
  rfl

/-- … and the bias `main_arg11` as a row in `main_v60`. -/
theorem host2_row0 (V : Valuation τ sig (Elt Ideal)) :
    StableHlo.after hostOps2 V (Proc.devRef .tc main_v60) = rowOf (V (Proc.devRef .tc main_arg11)) := by
  after_results_simp
  funext i
  obtain ⟨z, q, rfl⟩ : ∃ (z : Fin 1) (q : Fin 1), i = ix2 z q := ⟨i 0, i 1, eq_ix2 i⟩
  show shapeCast S1x1 (V (Proc.devRef .tc main_arg11)) shapeCasts_S1_S1x1 (ix2 z q) = _
  rw [shapeCast_a_1a_apply]
  rfl

/-- … and the bias `main_arg13` as a row in `main_v61`. -/
theorem host2_row1 (V : Valuation τ sig (Elt Ideal)) :
    StableHlo.after hostOps2 V (Proc.devRef .tc main_v61) = rowOf (V (Proc.devRef .tc main_arg13)) := by
  after_results_simp
  funext i
  obtain ⟨z, q, rfl⟩ : ∃ (z : Fin 1) (q : Fin 1), i = ix2 z q := ⟨i 0, i 1, eq_ix2 i⟩
  show shapeCast S1x1 (V (Proc.devRef .tc main_arg13)) shapeCasts_S1_S1x1 (ix2 z q) = _
  rw [shapeCast_a_1a_apply]
  rfl

/-- The fourth stretch leaves the mean aggregation of `main_v20` along the edges `main_arg20 → main_arg21` in `main_v80`. -/
theorem host3_mean (V : Valuation τ sig (Elt Ideal)) :
    StableHlo.after hostOps3 V (Proc.devRef .tc main_v80)
      = segMean (V (Proc.devRef .tc main_v20)) (V (Proc.devRef .tc main_arg20)) (V (Proc.devRef .tc main_arg21)) := by
  after_results_simp
  unfold segMean
    Cert.ReferenceIdeal.Read.val_main_v17
    Cert.ReferenceIdeal.Read.val_main_v9
    Cert.ReferenceIdeal.Read.val_main_v16
    Cert.ReferenceIdeal.Read.val_main_v15
    Cert.ReferenceIdeal.Read.val_main_v13
    Cert.ReferenceIdeal.Read.val_main_v14
    Cert.ReferenceIdeal.Read.val_main_v12
    Cert.ReferenceIdeal.Read.val_main_v11
    Cert.ReferenceIdeal.Read.val_main_v10
    Cert.ReferenceIdeal.Read.val_main_v8
    Cert.ReferenceIdeal.Read.val_main_v7
    Cert.ReferenceIdeal.Read.val_main_v6
    Cert.ReferenceIdeal.Read.val_main_v5
    Cert.ReferenceIdeal.Read.val_main_v4
    Cert.ReferenceIdeal.Read.val_main_v3
    Cert.ReferenceIdeal.Read.val_main_v2
    Cert.ReferenceIdeal.Read.val_main_v1
    Cert.ReferenceIdeal.Read.val_main_v0
    Cert.ReferenceIdeal.Read.val_main_c
    Cert.ReferenceIdeal.Read.val_main_c_0
    Cert.ReferenceIdeal.Read.val_main_cst
    Cert.ReferenceIdeal.Read.val_main_cst_1
    Cert.ReferenceIdeal.Read.val_main_cst_2
    Cert.ReferenceIdeal.Read.val_main_cst_3
  rfl

/-- … and the bias `main_arg15` as a row in `main_v81`. -/
theorem host3_row0 (V : Valuation τ sig (Elt Ideal)) :
    StableHlo.after hostOps3 V (Proc.devRef .tc main_v81) = rowOf (V (Proc.devRef .tc main_arg15)) := by
  after_results_simp
  funext i
  obtain ⟨z, q, rfl⟩ : ∃ (z : Fin 1) (q : Fin 1), i = ix2 z q := ⟨i 0, i 1, eq_ix2 i⟩
  show shapeCast S1x1 (V (Proc.devRef .tc main_arg15)) shapeCasts_S1_S1x1 (ix2 z q) = _
  rw [shapeCast_a_1a_apply]
  rfl

/-- … and the bias `main_arg17` as a row in `main_v82`. -/
theorem host3_row1 (V : Valuation τ sig (Elt Ideal)) :
    StableHlo.after hostOps3 V (Proc.devRef .tc main_v82) = rowOf (V (Proc.devRef .tc main_arg17)) := by
  after_results_simp
  funext i
  obtain ⟨z, q, rfl⟩ : ∃ (z : Fin 1) (q : Fin 1), i = ix2 z q := ⟨i 0, i 1, eq_ix2 i⟩
  show shapeCast S1x1 (V (Proc.devRef .tc main_arg17)) shapeCasts_S1_S1x1 (ix2 z q) = _
  rw [shapeCast_a_1a_apply]
  rfl

section Boundaries

variable (m : (ℓ : Loc nD τ sig) → Buf (Elt Ideal) ℓ) (ρ : Dev nD → PrngReg) (c : Dev nD)

/-- The tweets' first-round features as a function of core `c`'s launch contents. -/
def hTweetAt : Feat := hidden (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg18)) (m ((c.tc : Thread nD τ).loc main_arg19))

/-- The users' first-round features as a function of core `c`'s launch contents. -/
def hUserAt : Feat := hidden (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg20)) (m ((c.tc : Thread nD τ).loc main_arg21))

/-- The users' result as a function of core `c`'s launch contents. -/
def outUserAt (m : (ℓ : Loc nD τ sig) → Buf (Elt Ideal) ℓ) (c : Dev nD) : Score :=
  outUser (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))

/-- The tweets' result as a function of core `c`'s launch contents. -/
def outTweetAt (m : (ℓ : Loc nD τ sig) → Buf (Elt Ideal) ℓ) (c : Dev nD) : Score :=
  outTweet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg20)) (m ((c.tc : Thread nD τ).loc main_arg21))

/-! ### An argument array still holds its launch contents at the boundary where it is read

No stretch of host operations writes an argument, and a launch only reads one (through an input window) or does not
touch it, so each boundary's contents at an argument walk back, step by step, to the launch memory. -/

theorem at1_arg1 : W1 m ρ c (Proc.devRef .tc main_arg1) = (m ((c.tc : Thread nD τ).loc main_arg1)) :=
  (keep0 (W0 m ρ c) (b := main_arg1) (by decide))
theorem at1_arg2 : W1 m ρ c (Proc.devRef .tc main_arg2) = (m ((c.tc : Thread nD τ).loc main_arg2)) :=
  (keep0 (W0 m ρ c) (b := main_arg2) (by decide))
theorem at1_arg4 : W1 m ρ c (Proc.devRef .tc main_arg4) = (m ((c.tc : Thread nD τ).loc main_arg4)) :=
  (keep0 (W0 m ρ c) (b := main_arg4) (by decide))
theorem at2_arg1 : W2 m ρ c (Proc.devRef .tc main_arg1) = (m ((c.tc : Thread nD τ).loc main_arg1)) :=
  (((W2_arr m ρ c 0).trans (((dat0 (V1 m ρ) c).arrAt_in 0 rfl _).trans (A_eq0 (V1 m ρ) c 0))).trans (keep0 (W0 m ρ c) (b := main_arg1) (by decide)))
theorem at2_arg20 : W2 m ρ c (Proc.devRef .tc main_arg20) = (m ((c.tc : Thread nD τ).loc main_arg20)) :=
  ((W2_of_ne m ρ c main_arg20 (by decide)).trans (keep0 (W0 m ρ c) (b := main_arg20) (by decide)))
theorem at2_arg21 : W2 m ρ c (Proc.devRef .tc main_arg21) = (m ((c.tc : Thread nD τ).loc main_arg21)) :=
  ((W2_of_ne m ρ c main_arg21 (by decide)).trans (keep0 (W0 m ρ c) (b := main_arg21) (by decide)))
theorem at2_arg7 : W2 m ρ c (Proc.devRef .tc main_arg7) = (m ((c.tc : Thread nD τ).loc main_arg7)) :=
  ((W2_of_ne m ρ c main_arg7 (by decide)).trans (keep0 (W0 m ρ c) (b := main_arg7) (by decide)))
theorem at2_arg9 : W2 m ρ c (Proc.devRef .tc main_arg9) = (m ((c.tc : Thread nD τ).loc main_arg9)) :=
  ((W2_of_ne m ρ c main_arg9 (by decide)).trans (keep0 (W0 m ρ c) (b := main_arg9) (by decide)))
theorem at3_arg0 : W3 m ρ c (Proc.devRef .tc main_arg0) = (m ((c.tc : Thread nD τ).loc main_arg0)) :=
  ((keep1 (W2 m ρ c) (b := main_arg0) (by decide)).trans ((W2_of_ne m ρ c main_arg0 (by decide)).trans (keep0 (W0 m ρ c) (b := main_arg0) (by decide))))
theorem at3_arg6 : W3 m ρ c (Proc.devRef .tc main_arg6) = (m ((c.tc : Thread nD τ).loc main_arg6)) :=
  ((keep1 (W2 m ρ c) (b := main_arg6) (by decide)).trans ((W2_of_ne m ρ c main_arg6 (by decide)).trans (keep0 (W0 m ρ c) (b := main_arg6) (by decide))))
theorem at3_arg8 : W3 m ρ c (Proc.devRef .tc main_arg8) = (m ((c.tc : Thread nD τ).loc main_arg8)) :=
  ((keep1 (W2 m ρ c) (b := main_arg8) (by decide)).trans ((W2_of_ne m ρ c main_arg8 (by decide)).trans (keep0 (W0 m ρ c) (b := main_arg8) (by decide))))
theorem at4_arg18 : W4 m ρ c (Proc.devRef .tc main_arg18) = (m ((c.tc : Thread nD τ).loc main_arg18)) :=
  ((W4_of_ne m ρ c main_arg18 (by decide)).trans ((keep1 (W2 m ρ c) (b := main_arg18) (by decide)).trans ((W2_of_ne m ρ c main_arg18 (by decide)).trans (keep0 (W0 m ρ c) (b := main_arg18) (by decide)))))
theorem at4_arg19 : W4 m ρ c (Proc.devRef .tc main_arg19) = (m ((c.tc : Thread nD τ).loc main_arg19)) :=
  ((W4_of_ne m ρ c main_arg19 (by decide)).trans ((keep1 (W2 m ρ c) (b := main_arg19) (by decide)).trans ((W2_of_ne m ρ c main_arg19 (by decide)).trans (keep0 (W0 m ρ c) (b := main_arg19) (by decide)))))
theorem at4_arg11 : W4 m ρ c (Proc.devRef .tc main_arg11) = (m ((c.tc : Thread nD τ).loc main_arg11)) :=
  ((W4_of_ne m ρ c main_arg11 (by decide)).trans ((keep1 (W2 m ρ c) (b := main_arg11) (by decide)).trans ((W2_of_ne m ρ c main_arg11 (by decide)).trans (keep0 (W0 m ρ c) (b := main_arg11) (by decide)))))
theorem at4_arg13 : W4 m ρ c (Proc.devRef .tc main_arg13) = (m ((c.tc : Thread nD τ).loc main_arg13)) :=
  ((W4_of_ne m ρ c main_arg13 (by decide)).trans ((keep1 (W2 m ρ c) (b := main_arg13) (by decide)).trans ((W2_of_ne m ρ c main_arg13 (by decide)).trans (keep0 (W0 m ρ c) (b := main_arg13) (by decide)))))
theorem at5_arg10 : W5 m ρ c (Proc.devRef .tc main_arg10) = (m ((c.tc : Thread nD τ).loc main_arg10)) :=
  ((keep2 (W4 m ρ c) (b := main_arg10) (by decide)).trans ((W4_of_ne m ρ c main_arg10 (by decide)).trans ((keep1 (W2 m ρ c) (b := main_arg10) (by decide)).trans ((W2_of_ne m ρ c main_arg10 (by decide)).trans (keep0 (W0 m ρ c) (b := main_arg10) (by decide))))))
theorem at5_arg12 : W5 m ρ c (Proc.devRef .tc main_arg12) = (m ((c.tc : Thread nD τ).loc main_arg12)) :=
  ((keep2 (W4 m ρ c) (b := main_arg12) (by decide)).trans ((W4_of_ne m ρ c main_arg12 (by decide)).trans ((keep1 (W2 m ρ c) (b := main_arg12) (by decide)).trans ((W2_of_ne m ρ c main_arg12 (by decide)).trans (keep0 (W0 m ρ c) (b := main_arg12) (by decide))))))
theorem at6_arg20 : W6 m ρ c (Proc.devRef .tc main_arg20) = (m ((c.tc : Thread nD τ).loc main_arg20)) :=
  ((W6_of_ne m ρ c main_arg20 (by decide)).trans ((keep2 (W4 m ρ c) (b := main_arg20) (by decide)).trans ((W4_of_ne m ρ c main_arg20 (by decide)).trans ((keep1 (W2 m ρ c) (b := main_arg20) (by decide)).trans ((W2_of_ne m ρ c main_arg20 (by decide)).trans (keep0 (W0 m ρ c) (b := main_arg20) (by decide)))))))
theorem at6_arg21 : W6 m ρ c (Proc.devRef .tc main_arg21) = (m ((c.tc : Thread nD τ).loc main_arg21)) :=
  ((W6_of_ne m ρ c main_arg21 (by decide)).trans ((keep2 (W4 m ρ c) (b := main_arg21) (by decide)).trans ((W4_of_ne m ρ c main_arg21 (by decide)).trans ((keep1 (W2 m ρ c) (b := main_arg21) (by decide)).trans ((W2_of_ne m ρ c main_arg21 (by decide)).trans (keep0 (W0 m ρ c) (b := main_arg21) (by decide)))))))
theorem at6_arg15 : W6 m ρ c (Proc.devRef .tc main_arg15) = (m ((c.tc : Thread nD τ).loc main_arg15)) :=
  ((W6_of_ne m ρ c main_arg15 (by decide)).trans ((keep2 (W4 m ρ c) (b := main_arg15) (by decide)).trans ((W4_of_ne m ρ c main_arg15 (by decide)).trans ((keep1 (W2 m ρ c) (b := main_arg15) (by decide)).trans ((W2_of_ne m ρ c main_arg15 (by decide)).trans (keep0 (W0 m ρ c) (b := main_arg15) (by decide)))))))
theorem at6_arg17 : W6 m ρ c (Proc.devRef .tc main_arg17) = (m ((c.tc : Thread nD τ).loc main_arg17)) :=
  ((W6_of_ne m ρ c main_arg17 (by decide)).trans ((keep2 (W4 m ρ c) (b := main_arg17) (by decide)).trans ((W4_of_ne m ρ c main_arg17 (by decide)).trans ((keep1 (W2 m ρ c) (b := main_arg17) (by decide)).trans ((W2_of_ne m ρ c main_arg17 (by decide)).trans (keep0 (W0 m ρ c) (b := main_arg17) (by decide)))))))
theorem at7_arg14 : W7 m ρ c (Proc.devRef .tc main_arg14) = (m ((c.tc : Thread nD τ).loc main_arg14)) :=
  ((keep3 (W6 m ρ c) (b := main_arg14) (by decide)).trans ((W6_of_ne m ρ c main_arg14 (by decide)).trans ((keep2 (W4 m ρ c) (b := main_arg14) (by decide)).trans ((W4_of_ne m ρ c main_arg14 (by decide)).trans ((keep1 (W2 m ρ c) (b := main_arg14) (by decide)).trans ((W2_of_ne m ρ c main_arg14 (by decide)).trans (keep0 (W0 m ρ c) (b := main_arg14) (by decide))))))))
theorem at7_arg16 : W7 m ρ c (Proc.devRef .tc main_arg16) = (m ((c.tc : Thread nD τ).loc main_arg16)) :=
  ((keep3 (W6 m ρ c) (b := main_arg16) (by decide)).trans ((W6_of_ne m ρ c main_arg16 (by decide)).trans ((keep2 (W4 m ρ c) (b := main_arg16) (by decide)).trans ((W4_of_ne m ρ c main_arg16 (by decide)).trans ((keep1 (W2 m ρ c) (b := main_arg16) (by decide)).trans ((W2_of_ne m ρ c main_arg16 (by decide)).trans (keep0 (W0 m ρ c) (b := main_arg16) (by decide))))))))

/-! ### First launch: the tweets' first-round features -/

theorem in0_0 : V1 m ρ c main_arg1 = (m ((c.tc : Thread nD τ).loc main_arg1)) := at1_arg1 m ρ c
theorem in0_1 : V1 m ρ c main_v17 = segMean (m ((c.tc : Thread nD τ).loc main_arg0)) (m ((c.tc : Thread nD τ).loc main_arg18)) (m ((c.tc : Thread nD τ).loc main_arg19)) := host0_mean (W0 m ρ c)
theorem in0_2 : V1 m ρ c main_arg2 = (m ((c.tc : Thread nD τ).loc main_arg2)) := at1_arg2 m ρ c
theorem in0_3 : V1 m ρ c main_v18 = rowOf (m ((c.tc : Thread nD τ).loc main_arg3)) := host0_row0 (W0 m ρ c)
theorem in0_4 : V1 m ρ c main_arg4 = (m ((c.tc : Thread nD τ).loc main_arg4)) := at1_arg4 m ρ c
theorem in0_5 : V1 m ρ c main_v19 = rowOf (m ((c.tc : Thread nD τ).loc main_arg5)) := host0_row1 (W0 m ρ c)

/-- After the first launch its output array holds the tweets' first-round features. -/
theorem hTweet_at2 : W2 m ρ c (Proc.devRef .tc main_v20) = hTweetAt m c := by
  refine (W2_arr m ρ c 6).trans ?_
  rw [Cert.MeanConv.Region0.value (V1 m ρ) c, in0_0, in0_1, in0_2, in0_3, in0_4, in0_5]
  rfl

/-! ### Second launch: the users' first-round features -/

theorem in1_0 : V3 m ρ c main_arg0 = (m ((c.tc : Thread nD τ).loc main_arg0)) := at3_arg0 m ρ c
theorem in1_1 : V3 m ρ c main_v38 = segMean (m ((c.tc : Thread nD τ).loc main_arg1)) (m ((c.tc : Thread nD τ).loc main_arg20)) (m ((c.tc : Thread nD τ).loc main_arg21)) := by
  refine (host1_mean (W2 m ρ c)).trans ?_
  rw [at2_arg1, at2_arg20, at2_arg21]
theorem in1_2 : V3 m ρ c main_arg6 = (m ((c.tc : Thread nD τ).loc main_arg6)) := at3_arg6 m ρ c
theorem in1_3 : V3 m ρ c main_v39 = rowOf (m ((c.tc : Thread nD τ).loc main_arg7)) := (host1_row0 (W2 m ρ c)).trans (congrArg rowOf (at2_arg7 m ρ c))
theorem in1_4 : V3 m ρ c main_arg8 = (m ((c.tc : Thread nD τ).loc main_arg8)) := at3_arg8 m ρ c
theorem in1_5 : V3 m ρ c main_v40 = rowOf (m ((c.tc : Thread nD τ).loc main_arg9)) := (host1_row1 (W2 m ρ c)).trans (congrArg rowOf (at2_arg9 m ρ c))

/-- After the second launch its output array holds the users' first-round features. -/
theorem hUser_at4 : W4 m ρ c (Proc.devRef .tc main_v41) = hUserAt m c := by
  refine (W4_arr m ρ c 6).trans ?_
  rw [Cert.MeanConv.Region1.value (V3 m ρ) c, in1_0, in1_1, in1_2, in1_3, in1_4, in1_5]
  rfl

/-! ### Third launch: the tweets' result -/

theorem in2_0 : V5 m ρ c main_v20 = hTweetAt m c :=
  ((keep2 (W4 m ρ c) (b := main_v20) (by decide)).trans ((W4_of_ne m ρ c main_v20 (by decide)).trans (keep1 (W2 m ρ c) (b := main_v20) (by decide)))).trans (hTweet_at2 m ρ c)
theorem in2_1 : V5 m ρ c main_v59 = segMean (hUserAt m c) (m ((c.tc : Thread nD τ).loc main_arg18)) (m ((c.tc : Thread nD τ).loc main_arg19)) := by
  refine (host2_mean (W4 m ρ c)).trans ?_
  rw [hUser_at4, at4_arg18, at4_arg19]
theorem in2_2 : V5 m ρ c main_arg10 = (m ((c.tc : Thread nD τ).loc main_arg10)) := at5_arg10 m ρ c
theorem in2_3 : V5 m ρ c main_v60 = rowOf (m ((c.tc : Thread nD τ).loc main_arg11)) := (host2_row0 (W4 m ρ c)).trans (congrArg rowOf (at4_arg11 m ρ c))
theorem in2_4 : V5 m ρ c main_arg12 = (m ((c.tc : Thread nD τ).loc main_arg12)) := at5_arg12 m ρ c
theorem in2_5 : V5 m ρ c main_v61 = rowOf (m ((c.tc : Thread nD τ).loc main_arg13)) := (host2_row1 (W4 m ρ c)).trans (congrArg rowOf (at4_arg13 m ρ c))

/-- After the third launch its output array holds the tweets' result. -/
theorem outTweet_at6 : W6 m ρ c (Proc.devRef .tc main_v62) = outTweetAt m c := by
  refine (W6_arr m ρ c 6).trans ?_
  rw [Cert.MeanConv.Region2.value (V5 m ρ) c, in2_0, in2_1, in2_2, in2_3, in2_4, in2_5]
  rfl

/-! ### Fourth launch: the users' result -/

theorem in3_0 : V7 m ρ c main_v41 = hUserAt m c :=
  ((keep3 (W6 m ρ c) (b := main_v41) (by decide)).trans ((W6_of_ne m ρ c main_v41 (by decide)).trans (keep2 (W4 m ρ c) (b := main_v41) (by decide)))).trans (hUser_at4 m ρ c)
theorem hTweet_at6 : W6 m ρ c (Proc.devRef .tc main_v20) = hTweetAt m c :=
  (((W6_arr m ρ c 0).trans (((dat2 (V5 m ρ) c).arrAt_in 0 rfl _).trans (A_eq2 (V5 m ρ) c 0))).trans ((keep2 (W4 m ρ c) (b := main_v20) (by decide)).trans ((W4_of_ne m ρ c main_v20 (by decide)).trans (keep1 (W2 m ρ c) (b := main_v20) (by decide))))).trans (hTweet_at2 m ρ c)
theorem in3_1 : V7 m ρ c main_v80 = segMean (hTweetAt m c) (m ((c.tc : Thread nD τ).loc main_arg20)) (m ((c.tc : Thread nD τ).loc main_arg21)) := by
  refine (host3_mean (W6 m ρ c)).trans ?_
  rw [hTweet_at6, at6_arg20, at6_arg21]
theorem in3_2 : V7 m ρ c main_arg14 = (m ((c.tc : Thread nD τ).loc main_arg14)) := at7_arg14 m ρ c
theorem in3_3 : V7 m ρ c main_v81 = rowOf (m ((c.tc : Thread nD τ).loc main_arg15)) := (host3_row0 (W6 m ρ c)).trans (congrArg rowOf (at6_arg15 m ρ c))
theorem in3_4 : V7 m ρ c main_arg16 = (m ((c.tc : Thread nD τ).loc main_arg16)) := at7_arg16 m ρ c
theorem in3_5 : V7 m ρ c main_v82 = rowOf (m ((c.tc : Thread nD τ).loc main_arg17)) := (host3_row1 (W6 m ρ c)).trans (congrArg rowOf (at6_arg17 m ρ c))

/-- At the return the fourth launch's output array holds the users' result … -/
theorem outUser_at8 : W8 m ρ c (Proc.devRef .tc main_v83) = outUserAt m c := by
  refine (W8_arr m ρ c 6).trans ?_
  rw [Cert.MeanConv.Region3.value (V7 m ρ) c, in3_0, in3_1, in3_2, in3_3, in3_4, in3_5]
  rfl

/-- … and the third launch's output array still holds the tweets' result. -/
theorem outTweet_at8 : W8 m ρ c (Proc.devRef .tc main_v62) = outTweetAt m c :=
  ((W8_of_ne m ρ c main_v62 (by decide)).trans (keep3 (W6 m ρ c) (b := main_v62) (by decide))).trans (outTweet_at6 m ρ c)

end Boundaries

/-- The idealized kernel's run with both results named: every weakly fair execution terminates, nothing faulting, with
    the users' result in `main_v83`, the tweets' result in `main_v62` and every argument array unchanged. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v83) = outUserAt m c
      ∧ r.2.mem ((c.tc : Thread nD τ).loc main_v62) = outTweetAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(h c main_v83 (by decide)).trans (outUser_at8 m ρ c),
     (h c main_v62 (by decide)).trans (outTweet_at8 m ρ c),
     (h c main_arg0 (by decide)).trans (W8_main_arg0 m ρ c),
     (h c main_arg1 (by decide)).trans (W8_main_arg1 m ρ c),
     (h c main_arg2 (by decide)).trans (W8_main_arg2 m ρ c),
     (h c main_arg3 (by decide)).trans (W8_main_arg3 m ρ c),
     (h c main_arg4 (by decide)).trans (W8_main_arg4 m ρ c),
     (h c main_arg5 (by decide)).trans (W8_main_arg5 m ρ c),
     (h c main_arg6 (by decide)).trans (W8_main_arg6 m ρ c),
     (h c main_arg7 (by decide)).trans (W8_main_arg7 m ρ c),
     (h c main_arg8 (by decide)).trans (W8_main_arg8 m ρ c),
     (h c main_arg9 (by decide)).trans (W8_main_arg9 m ρ c),
     (h c main_arg10 (by decide)).trans (W8_main_arg10 m ρ c),
     (h c main_arg11 (by decide)).trans (W8_main_arg11 m ρ c),
     (h c main_arg12 (by decide)).trans (W8_main_arg12 m ρ c),
     (h c main_arg13 (by decide)).trans (W8_main_arg13 m ρ c),
     (h c main_arg14 (by decide)).trans (W8_main_arg14 m ρ c),
     (h c main_arg15 (by decide)).trans (W8_main_arg15 m ρ c),
     (h c main_arg16 (by decide)).trans (W8_main_arg16 m ρ c),
     (h c main_arg17 (by decide)).trans (W8_main_arg17 m ρ c),
     (h c main_arg18 (by decide)).trans (W8_main_arg18 m ρ c),
     (h c main_arg19 (by decide)).trans (W8_main_arg19 m ρ c),
     (h c main_arg20 (by decide)).trans (W8_main_arg20 m ρ c),
     (h c main_arg21 (by decide)).trans (W8_main_arg21 m ρ c)⟩)
    (run_all m ρ)

end Cert.KernelIdeal.Values

end
-- ==== Proof.lean ====
/-
  The certificate's five claims, for two rounds of a layer that joins each node's own features with the mean of its
  neighbours' features, between two kinds of nodes (users and tweets).

  frame (three claims): each program (the kernel at the bit-exact instance, the kernel at the ideal instance, the host
  reference at the ideal instance) runs to the end and leaves its argument arrays as it found them. The kernel's two are
  its generated frames; the reference's is its generated run with the two results dropped.

  preserves: reading the kernel at the ideal instance rewrote no operation, so the claim is `True`.

  algebraic: at the ideal instance, from arguments that agree, both programs end with the same two result arrays. Both are
  shown to end at ONE pair of functions of the arguments, `outUser` and `outTweet` (module Model: the second round's
  `score` of the first round's `hidden`s, each a layer  x · wsᵀ + bs + (mean of neighbours) · wnᵀ + bn  of module
  LibMeanConv, the four terms added in that order). Module KernelValues proves it of the kernel's run, whose four regions
  each compute a layer block of rows by block of rows; module RefValue proves it of the reference's chain of whole-array
  operations, entry by entry. No law of arithmetic is used: both sides add the same terms in the same order.
-/
import proofs.«164524_j12790412607511_1_alg».proof.Defs
import proofs.«164524_j12790412607511_1_alg».proof.Proof.Gen.Kernel
import proofs.«164524_j12790412607511_1_alg».proof.Proof.Gen.Kernel.Skeleton
import proofs.«164524_j12790412607511_1_alg».proof.Proof.Gen.Kernel.Launch
import proofs.«164524_j12790412607511_1_alg».proof.Proof.Gen.Kernel.Points
import proofs.«164524_j12790412607511_1_alg».proof.Proof.Gen.Kernel.Frame
import proofs.«164524_j12790412607511_1_alg».proof.Proof.Gen.KernelIdeal
import proofs.«164524_j12790412607511_1_alg».proof.Proof.Gen.KernelIdeal.Skeleton
import proofs.«164524_j12790412607511_1_alg».proof.Proof.Gen.KernelIdeal.Launch
import proofs.«164524_j12790412607511_1_alg».proof.Proof.Gen.KernelIdeal.Points
import proofs.«164524_j12790412607511_1_alg».proof.Proof.Gen.KernelIdeal.Frame
import proofs.«164524_j12790412607511_1_alg».proof.Proof.Gen.ReferenceIdeal
import proofs.«164524_j12790412607511_1_alg».proof.Proof.Gen.Pre_finite_inputs
import proofs.«164524_j12790412607511_1_alg».proof.Proof.Gen.ReferenceIdeal.Run
import proofs.«164524_j12790412607511_1_alg».proof.Proof.Gen.ReferenceIdeal.Read
import Idealize.ShloMosaic.Adequacy
import Idealize.ShloMosaic.Init
import proofs.«164524_j12790412607511_1_alg».proof.Proof.Model
import proofs.«164524_j12790412607511_1_alg».proof.Proof.RefValue
import proofs.«164524_j12790412607511_1_alg».proof.Proof.KernelValues

noncomputable section

/-! ## The claims -/

namespace Cert.Proof.Claims

open Idealize.ShloMosaic Idealize.SL.Sem

/-- The kernel runs and leaves its arguments unchanged, at the bit-exact instance and at the ideal one: the generated
    frames. -/
theorem frame_k : Cert.frame_Kernel := fun m ρ _ => Cert.Kernel.Gen.frame m ρ
theorem frame_ki : Cert.frame_KernelIdeal := fun m ρ _ => Cert.KernelIdeal.Gen.frame m ρ

/-- The reference runs and leaves its arguments unchanged: its generated run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Reading the kernel at the ideal instance rewrote no operation, so there is nothing to preserve. -/
theorem preserves : Cert.preserves_Kernel_KernelIdeal := trivial

/-- At the ideal instance both programs end with the users' result at `outUser` and the tweets' result at `outTweet` of
    their arguments: the kernel by its run (`run_values`), the reference by its generated run, whose two results are
    the last stages of its chain of operations, and those are `score` of `hidden`s (`ref_outU`, `ref_outT`), that is
    `outUser` and `outTweet` by definition. The arguments agree, so the results are equal. -/
theorem algebraic : Cert.algebraic_KernelIdeal_ReferenceIdeal := by
  intro m ρ m' ρ' _ hagree
  refine ⟨fun c => Cert.KernelIdeal.Values.outUserAt m c, fun c => Cert.KernelIdeal.Values.outTweetAt m c,
    Cert.KernelIdeal.Values.run_values m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18, h19, h20, h21⟩ := hagree c
    rw [Cert.ReferenceIdeal.Read.val_main_v117_eq, Cert.MeanConv.Ref.ref_outU, h0, h1, h2, h3, h4, h5, h6, h7, h8, h9, h14, h15, h16, h17, h18, h19, h20, h21]
    rfl
  · obtain ⟨h0, h1, h2, h3, h4, h5, h6, h7, h8, h9, h10, h11, h12, h13, h14, h15, h16, h17, h18, h19, h20, h21⟩ := hagree c
    rw [Cert.ReferenceIdeal.Read.val_main_v88_eq, Cert.MeanConv.Ref.ref_outT, h0, h1, h2, h3, h4, h5, h6, h7, h8, h9, h10, h11, h12, h13, h18, h19, h20, h21]
    rfl

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
